-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1000000 : Shape := ⟨2, ![64, 1000000]⟩
abbrev S1x1000000 : Shape := ⟨2, ![1, 1000000]⟩
abbrev S512x128 : Shape := ⟨2, ![512, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S64x1000000 : S_.BroadcastsInDim S64x1000000 (![] : Fin 0 → Fin S64x1000000.rank)
  reducesTo_S64x1000000_S_d0_1 : S64x1000000.ReducesTo [0, 1] S_
  h_S_ : 0 < S_.numel
  bcast_S_S1x1000000 : S_.BroadcastsInDim S1x1000000 (![] : Fin 0 → Fin S1x1000000.rank)
  reducesTo_S1x1000000_S_d0_1 : S1x1000000.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S128x1 .f32) (main_arg5 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x1 .f32 := Host.absf main_arg4
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S64x1000000 .f32) (main_arg1 : FVec F S1x1000000 .f32) (main_arg2 : FVec F S512x128 .f32) (main_arg3 : FVec F S128 .f32) (main_arg4 : FVec F S128x1 .f32) (main_arg5 : FVec F S1 .f32) : IVec S_ 1 :=
  let main_v0 : FVec F S64x1000000 .f32 := Host.absf main_arg0
  let main_cst : FVec F S_ .f32 := constant S_ .f32 0x7F800000#32
  let main_v1 : FVec F S64x1000000 .f32 := broadcastInDim S64x1000000 ![] bcast_S_S64x1000000 main_cst
  let main_v2 : IVec S64x1000000 1 := cmpf .olt main_v0 main_v1
  let main_c : IVec S_ 1 := constantI S_ 1 1#1
  let main_v3 : IVec S_ 1 := (fun x v => Host.reduce IntOp.andi x v reducesTo_S64x1000000_S_d0_1 h_S_) main_v2 main_c
  let main_v4 : FVec F S1x1000000 .f32 := Host.absf main_arg1
  let main_cst_0 : FVec F S_ .f32 := constant S_ .f32 0x7F800000#32
  let main_v5 : FVec F S1x1000000 .f32 := broadcastInDim S1x1000000 ![] bcast_S_S1x1000000 main_cst_0
  let main_v6 : IVec S1x1000000 1 := cmpf .olt main_v4 main_v5
  let main_c_1 : IVec S_ 1 := constantI S_ 1 1#1
  let main_v7 : IVec S_ 1 := (fun x v => Host.reduce IntOp.andi x v reducesTo_S1x1000000_S_d0_1 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S64x1000000 : Shape := ⟨2, ![64, 1000000]⟩
abbrev S1x1000000 : Shape := ⟨2, ![1, 1000000]⟩
abbrev S512x128 : Shape := ⟨2, ![512, 128]⟩
abbrev S128 : Shape := ⟨1, ![128]⟩
abbrev S128x1 : Shape := ⟨2, ![128, 1]⟩
abbrev S1 : Shape := ⟨1, ![1]⟩
abbrev S64x256 : Shape := ⟨2, ![64, 256]⟩
abbrev S1x256 : Shape := ⟨2, ![1, 256]⟩
abbrev S64x512 : Shape := ⟨2, ![64, 512]⟩
abbrev S64x128 : Shape := ⟨2, ![64, 128]⟩
abbrev S1x128 : Shape := ⟨2, ![1, 128]⟩
abbrev S_ : Shape := ⟨0, ![]⟩
abbrev S64x1 : Shape := ⟨2, ![64, 1]⟩
abbrev S1x1 : Shape := ⟨2, ![1, 1]⟩
abbrev S64x65536 : Shape := ⟨2, ![64, 65536]⟩
abbrev S1x65536 : Shape := ⟨2, ![1, 65536]⟩
abbrev S65536 : Shape := ⟨1, ![65536]⟩

abbrev nBuf : Space → Nat
  | .hbm => 39
  | .vmem => 7
  | .smem => 0
  | _ => 0

abbrev bufTy : (tb : Table) → Fin (tcTables nBuf tb) → BufTy
  | .hbm, ⟨0, _⟩ => ⟨S64x1000000, .f32⟩
  | .hbm, ⟨1, _⟩ => ⟨S1x1000000, .f32⟩
  | .hbm, ⟨2, _⟩ => ⟨S512x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S64x256, .f32⟩
  | .hbm, ⟨7, _⟩ => ⟨S1x256, .f32⟩
  | .hbm, ⟨8, _⟩ => ⟨S64x256, .f32⟩
  | .hbm, ⟨9, _⟩ => ⟨S64x512, .f32⟩
  | .hbm, ⟨10, _⟩ => ⟨S64x128, .f32⟩
  | .hbm, ⟨11, _⟩ => ⟨S1x128, .f32⟩
  | .hbm, ⟨12, _⟩ => ⟨S64x128, .f32⟩
  | .hbm, ⟨13, _⟩ => ⟨S64x128, .f32⟩
  | .hbm, ⟨14, _⟩ => ⟨S_, .f32⟩
  | .hbm, ⟨15, _⟩ => ⟨S64x128, .f32⟩
  | .hbm, ⟨16, _⟩ => ⟨S64x128, .f32⟩
  | .hbm, ⟨17, _⟩ => ⟨S64x1, .f32⟩
  | .hbm, ⟨18, _⟩ => ⟨S1x1, .f32⟩
  | .hbm, ⟨19, _⟩ => ⟨S64x1, .f32⟩
  | .hbm, ⟨20, _⟩ => ⟨S64x1, .f32⟩
  | .hbm, ⟨21, _⟩ => ⟨S_, .f32⟩
  | .hbm, ⟨22, _⟩ => ⟨S64x1, .f32⟩
  | .hbm, ⟨23, _⟩ => ⟨S64x1, .f32⟩
  | .hbm, ⟨24, _⟩ => ⟨S_, .f32⟩
  | .hbm, ⟨25, _⟩ => ⟨S1, .f32⟩
  | .hbm, ⟨26, _⟩ => ⟨S_, .f32⟩
  | .hbm, ⟨27, _⟩ => ⟨S1, .f32⟩
  | .hbm, ⟨28, _⟩ => ⟨S1, .f32⟩
  | .hbm, ⟨29, _⟩ => ⟨S1x1, .f32⟩
  | .hbm, ⟨30, _⟩ => ⟨S64x1, .f32⟩
  | .hbm, ⟨31, _⟩ => ⟨S64x1, .f32⟩
  | .hbm, ⟨32, _⟩ => ⟨S64x1, .f32⟩
  | .hbm, ⟨33, _⟩ => ⟨S_, .f32⟩
  | .hbm, ⟨34, _⟩ => ⟨S1, .f32⟩
  | .hbm, ⟨35, _⟩ => ⟨S1x1, .f32⟩
  | .hbm, ⟨36, _⟩ => ⟨S64x1, .f32⟩
  | .hbm, ⟨37, _⟩ => ⟨S64x1, .f32⟩
  | .hbm, ⟨38, _⟩ => ⟨S1x1000000, .f32⟩
  | .local _ .vmem, ⟨0, _⟩ => ⟨S64x65536, .f32⟩
  | .local _ .vmem, ⟨1, _⟩ => ⟨S64x65536, .f32⟩
  | .local _ .vmem, ⟨2, _⟩ => ⟨S64x1, .f32⟩
  | .local _ .vmem, ⟨3, _⟩ => ⟨S1x65536, .f32⟩
  | .local _ .vmem, ⟨4, _⟩ => ⟨S1x65536, .f32⟩
  | .local _ .vmem, ⟨5, _⟩ => ⟨S1x65536, .f32⟩
  | .local _ .vmem, ⟨6, _⟩ => ⟨S1x65536, .f32⟩
  | _, _ => ⟨S64x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_cst : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x65536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x65536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S64x1000000_S64x256_0_0 : S64x1000000.Slices ![0, 0] S64x256
  slices_S1x1000000_S1x256_0_0 : S1x1000000.Slices ![0, 0] S1x256
  bcast_S1x256_S64x256_0_1 : S1x256.BroadcastsInDim S64x256 (![0, 1] : Fin 2 → Fin S64x256.rank)
  concatenates_S64x256_S64x256_S64x512_d1 : Shape.Concatenates [S64x256, S64x256] S64x512 1
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  reducesTo_S64x1_S1_d0 : S64x1.ReducesTo [0] S1
  h_S_ : 0 < S_.numel
  bcast_S_S1 : S_.BroadcastsInDim S1 (![] : Fin 0 → Fin S1.rank)
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S64x65536_S64x65536_0_0 : ∀ a, (![0, 0] : Fin 2 → Nat) a + S64x65536.size a ≤ S64x65536.size a
  h_S64x65536 : 0 < S64x65536.numel
  broadcasts_S64x1_S64x65536 : S64x1.Broadcasts S64x65536
  reduces_S64x65536_S65536 : S64x65536.Reduces [0] S65536
  shapeCasts_S65536_S1x65536 : S65536.ShapeCasts S1x65536
  inb_S1x65536_S1x65536_0_0 : ∀ a, (![0, 0] : Fin 2 → Nat) a + S1x65536.size a ≤ S1x65536.size a
  h_S1x65536 : 0 < S1x65536.numel
  dot_S64x512_S512x128_S64x128_1_0_0_1_n_n_wf : DotDims.WF S64x512 S512x128 S64x128 [1] [0] [0] [1] [] []
  dot_S64x128_S128x1_S64x1_1_0_0_1_n_n_wf : DotDims.WF S64x128 S128x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S64x65536.size a < S64x1000000.size a
  hwx0_0 : ∀ i : grid0.Coords, EltTy.bits .f32 = 32 ∨ (Rect.unit (s := S64x1000000) (fun a => cc0_transform_0 i a * S64x65536.size a) (fun a => (Pipeline.Clip.of (cc0_transform_0 i a) (S64x65536.size a) (S64x1000000.size a)).extent (S64x65536.size a)) fun a => Pipeline.Clip.inb (Pipeline.Clip.ok_of (hstart0_0 i a))).WholeWords (EltTy.packing .f32)
  hwxs0_0 : ∀ i : grid0.Coords, EltTy.bits .f32 = 32 ∨ (Rect.unit (s := S64x65536) (fun _ => 0) (fun a => (Pipeline.Clip.of (cc0_transform_0 i a) (S64x65536.size a) (S64x1000000.size a)).extent (S64x65536.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S64x1.size a
  hwx0_1 : ∀ i : grid0.Coords, EltTy.bits .f32 = 32 ∨ (Rect.block (s := S64x1) S64x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x65536.size a < S1x1000000.size a
  hwx0_2 : ∀ i : grid0.Coords, EltTy.bits .f32 = 32 ∨ (Rect.unit (s := S1x1000000) (fun a => cc0_transform_2 i a * S1x65536.size a) (fun a => (Pipeline.Clip.of (cc0_transform_2 i a) (S1x65536.size a) (S1x1000000.size a)).extent (S1x65536.size a)) fun a => Pipeline.Clip.inb (Pipeline.Clip.ok_of (hstart0_2 i a))).WholeWords (EltTy.packing .f32)
  hwxs0_2 : ∀ i : grid0.Coords, EltTy.bits .f32 = 32 ∨ (Rect.unit (s := S1x65536) (fun _ => 0) (fun a => (Pipeline.Clip.of (cc0_transform_2 i a) (S1x65536.size a) (S1x1000000.size a)).extent (S1x65536.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x65536.size a < S1x1000000.size a
  hwx0_3 : ∀ i : grid0.Coords, EltTy.bits .f32 = 32 ∨ (Rect.unit (s := S1x1000000) (fun a => cc0_transform_3 i a * S1x65536.size a) (fun a => (Pipeline.Clip.of (cc0_transform_3 i a) (S1x65536.size a) (S1x1000000.size a)).extent (S1x65536.size a)) fun a => Pipeline.Clip.inb (Pipeline.Clip.ok_of (hstart0_3 i a))).WholeWords (EltTy.packing .f32)
  hwxs0_3 : ∀ i : grid0.Coords, EltTy.bits .f32 = 32 ∨ (Rect.unit (s := S1x65536) (fun _ => 0) (fun a => (Pipeline.Clip.of (cc0_transform_3 i a) (S1x65536.size a) (S1x1000000.size a)).extent (S1x65536.size a)) fun a => (Nat.zero_add _).trans_le (Pipeline.Clip.extent_le (Pipeline.Clip.ok_of (hstart0_3 i a)))).WholeWords (EltTy.packing .f32)

variable [Facts₀]

def dot_S64x512_S512x128_S64x128_1_0_0_1_n_n : DotDims S64x512 S512x128 S64x128 where
  lhsContracting := [1]
  rhsContracting := [0]
  lhsNonContracting := [0]
  rhsNonContracting := [1]
  lhsBatch := []
  rhsBatch := []
  wf := dot_S64x512_S512x128_S64x128_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

abbrev win0_0 : Pipeline.Window sig grid0 :=
  Pipeline.Window.ofSpecClip (Memref.whole main_arg0) S64x65536.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v25) S64x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_arg1) S1x65536.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v26) S1x65536.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x1000000 : Shape := ⟨2, ![64, 1000000]⟩
abbrev S1x1000000 : Shape := ⟨2, ![1, 1000000]⟩
abbrev S512x128 : Shape := ⟨2, ![512, 128]⟩
abbrev S128 : Shape := ⟨1, ![128]⟩
abbrev S128x1 : Shape := ⟨2, ![128, 1]⟩
abbrev S1 : Shape := ⟨1, ![1]⟩
abbrev S256 : Shape := ⟨1, ![256]⟩
abbrev S_ : Shape := ⟨0, ![]⟩
abbrev S256x1 : Shape := ⟨2, ![256, 1]⟩
abbrev S64x256 : Shape := ⟨2, ![64, 256]⟩
abbrev S64x512 : Shape := ⟨2, ![64, 512]⟩
abbrev S64x128 : Shape := ⟨2, ![64, 128]⟩
abbrev S1x128 : Shape := ⟨2, ![1, 128]⟩
abbrev S64x1 : Shape := ⟨2, ![64, 1]⟩
abbrev S1x1 : Shape := ⟨2, ![1, 1]⟩
abbrev S1000000 : Shape := ⟨1, ![1000000]⟩

abbrev nBuf : Space → Nat
  | .hbm => 112
  | .vmem => 0
  | .smem => 0
  | _ => 0

abbrev bufTy : (tb : Table) → Fin (tcTables nBuf tb) → BufTy
  | .hbm, ⟨0, _⟩ => ⟨S64x1000000, .f32⟩
  | .hbm, ⟨1, _⟩ => ⟨S1x1000000, .f32⟩
  | .hbm, ⟨2, _⟩ => ⟨S512x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S64x1000000, .f32⟩
  | .hbm, ⟨7, _⟩ => ⟨S256, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S256, .i32⟩
  | .hbm, ⟨15, _⟩ => ⟨S256, .i32⟩
  | .hbm, ⟨16, _⟩ => ⟨S_, .i32⟩
  | .hbm, ⟨17, _⟩ => ⟨S256, .i32⟩
  | .hbm, ⟨18, _⟩ => ⟨S256, .i1⟩
  | .hbm, ⟨19, _⟩ => ⟨S_, .i32⟩
  | .hbm, ⟨20, _⟩ => ⟨S256, .i32⟩
  | .hbm, ⟨21, _⟩ => ⟨S256, .i1⟩
  | .hbm, ⟨22, _⟩ => ⟨S_, .i32⟩
  | .hbm, ⟨23, _⟩ => ⟨S_, .i1⟩
  | .hbm, ⟨24, _⟩ => ⟨S256, .i1⟩
  | .hbm, ⟨25, _⟩ => ⟨S256, .i1⟩
  | .hbm, ⟨26, _⟩ => ⟨S256, .i1⟩
  | .hbm, ⟨27, _⟩ => ⟨S256, .i32⟩
  | .hbm, ⟨28, _⟩ => ⟨S256, .i32⟩
  | .hbm, ⟨29, _⟩ => ⟨S256, .i32⟩
  | .hbm, ⟨30, _⟩ => ⟨S_, .i32⟩
  | .hbm, ⟨31, _⟩ => ⟨S256, .i32⟩
  | .hbm, ⟨32, _⟩ => ⟨S256, .i1⟩
  | .hbm, ⟨33, _⟩ => ⟨S_, .i32⟩
  | .hbm, ⟨34, _⟩ => ⟨S256, .i32⟩
  | .hbm, ⟨35, _⟩ => ⟨S256, .i32⟩
  | .hbm, ⟨36, _⟩ => ⟨S256, .i32⟩
  | .hbm, ⟨37, _⟩ => ⟨S256x1, .i32⟩
  | .hbm, ⟨38, _⟩ => ⟨S64x256, .f32⟩
  | .hbm, ⟨39, _⟩ => ⟨S256, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i1⟩
  | .hbm, ⟨44, _⟩ => ⟨S_, .i32⟩
  | .hbm, ⟨45, _⟩ => ⟨S_, .i32⟩
  | .hbm, ⟨46, _⟩ => ⟨S256, .i32⟩
  | .hbm, ⟨47, _⟩ => ⟨S256, .i32⟩
  | .hbm, ⟨48, _⟩ => ⟨S_, .i32⟩
  | .hbm, ⟨49, _⟩ => ⟨S256, .i32⟩
  | .hbm, ⟨50, _⟩ => ⟨S256, .i1⟩
  | .hbm, ⟨51, _⟩ => ⟨S_, .i32⟩
  | .hbm, ⟨52, _⟩ => ⟨S256, .i32⟩
  | .hbm, ⟨53, _⟩ => ⟨S256, .i1⟩
  | .hbm, ⟨54, _⟩ => ⟨S_, .i32⟩
  | .hbm, ⟨55, _⟩ => ⟨S_, .i1⟩
  | .hbm, ⟨56, _⟩ => ⟨S256, .i1⟩
  | .hbm, ⟨57, _⟩ => ⟨S256, .i1⟩
  | .hbm, ⟨58, _⟩ => ⟨S256, .i1⟩
  | .hbm, ⟨59, _⟩ => ⟨S256, .i32⟩
  | .hbm, ⟨60, _⟩ => ⟨S256, .i32⟩
  | .hbm, ⟨61, _⟩ => ⟨S256, .i32⟩
  | .hbm, ⟨62, _⟩ => ⟨S_, .i32⟩
  | .hbm, ⟨63, _⟩ => ⟨S256, .i32⟩
  | .hbm, ⟨64, _⟩ => ⟨S256, .i1⟩
  | .hbm, ⟨65, _⟩ => ⟨S_, .i32⟩
  | .hbm, ⟨66, _⟩ => ⟨S256, .i32⟩
  | .hbm, ⟨67, _⟩ => ⟨S256, .i32⟩
  | .hbm, ⟨68, _⟩ => ⟨S256, .i32⟩
  | .hbm, ⟨69, _⟩ => ⟨S256x1, .i32⟩
  | .hbm, ⟨70, _⟩ => ⟨S64x256, .f32⟩
  | .hbm, ⟨71, _⟩ => ⟨S64x512, .f32⟩
  | .hbm, ⟨72, _⟩ => ⟨S64x128, .f32⟩
  | .hbm, ⟨73, _⟩ => ⟨S1x128, .f32⟩
  | .hbm, ⟨74, _⟩ => ⟨S64x128, .f32⟩
  | .hbm, ⟨75, _⟩ => ⟨S64x128, .f32⟩
  | .hbm, ⟨76, _⟩ => ⟨S_, .f32⟩
  | .hbm, ⟨77, _⟩ => ⟨S64x128, .f32⟩
  | .hbm, ⟨78, _⟩ => ⟨S64x128, .f32⟩
  | .hbm, ⟨79, _⟩ => ⟨S64x1, .f32⟩
  | .hbm, ⟨80, _⟩ => ⟨S1x1, .f32⟩
  | .hbm, ⟨81, _⟩ => ⟨S64x1, .f32⟩
  | .hbm, ⟨82, _⟩ => ⟨S64x1, .f32⟩
  | .hbm, ⟨83, _⟩ => ⟨S_, .f32⟩
  | .hbm, ⟨84, _⟩ => ⟨S64x1, .f32⟩
  | .hbm, ⟨85, _⟩ => ⟨S64x1, .f32⟩
  | .hbm, ⟨86, _⟩ => ⟨S_, .f32⟩
  | .hbm, ⟨87, _⟩ => ⟨S1, .f32⟩
  | .hbm, ⟨88, _⟩ => ⟨S_, .f32⟩
  | .hbm, ⟨89, _⟩ => ⟨S1, .f32⟩
  | .hbm, ⟨90, _⟩ => ⟨S1, .f32⟩
  | .hbm, ⟨91, _⟩ => ⟨S1x1, .f32⟩
  | .hbm, ⟨92, _⟩ => ⟨S64x1, .f32⟩
  | .hbm, ⟨93, _⟩ => ⟨S64x1, .f32⟩
  | .hbm, ⟨94, _⟩ => ⟨S64x1, .f32⟩
  | .hbm, ⟨95, _⟩ => ⟨S_, .f32⟩
  | .hbm, ⟨96, _⟩ => ⟨S1, .f32⟩
  | .hbm, ⟨97, _⟩ => ⟨S1x1, .f32⟩
  | .hbm, ⟨98, _⟩ => ⟨S64x1, .f32⟩
  | .hbm, ⟨99, _⟩ => ⟨S64x1, .f32⟩
  | .hbm, ⟨100, _⟩ => ⟨S64x1000000, .f32⟩
  | .hbm, ⟨101, _⟩ => ⟨S64x1000000, .f32⟩
  | .hbm, ⟨102, _⟩ => ⟨S_, .f32⟩
  | .hbm, ⟨103, _⟩ => ⟨S1000000, .f32⟩
  | .hbm, ⟨104, _⟩ => ⟨S1x1000000, .f32⟩
  | .hbm, ⟨105, _⟩ => ⟨S_, .f32⟩
  | .hbm, ⟨106, _⟩ => ⟨S1x1000000, .f32⟩
  | .hbm, ⟨107, _⟩ => ⟨S1x1000000, .f32⟩
  | .hbm, ⟨108, _⟩ => ⟨S_, .f32⟩
  | .hbm, ⟨109, _⟩ => ⟨S1x1000000, .f32⟩
  | .hbm, ⟨110, _⟩ => ⟨S1x1000000, .f32⟩
  | .hbm, ⟨111, _⟩ => ⟨S1x1000000, .f32⟩
  | _, _ => ⟨S64x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v2 : Ref sig .tc := ⟨.hbm, 29, rfl⟩
abbrev main_c_0 : Ref sig .tc := ⟨.hbm, 30, rfl⟩
abbrev main_v3 : Ref sig .tc := ⟨.hbm, 31, rfl⟩
abbrev main_v4 : Ref sig .tc := ⟨.hbm, 32, rfl⟩
abbrev main_c_1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_c_2 : Ref sig .tc := ⟨.hbm, 40, rfl⟩
abbrev main_call1_v0 : Ref sig .tc := ⟨.hbm, 41, rfl⟩
abbrev main_call1_c : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_c_1 : Ref sig .tc := ⟨.hbm, 48, rfl⟩
abbrev main_call1_v5 : Ref sig .tc := ⟨.hbm, 49, rfl⟩
abbrev main_call1_v6 : Ref sig .tc := ⟨.hbm, 50, rfl⟩
abbrev main_call1_c_2 : Ref sig .tc := ⟨.hbm, 51, rfl⟩
abbrev main_call1_v7 : Ref sig .tc := ⟨.hbm, 52, rfl⟩
abbrev main_call1_v8 : Ref sig .tc := ⟨.hbm, 53, rfl⟩
abbrev main_call1_c_3 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_v11 : Ref sig .tc := ⟨.hbm, 61, rfl⟩
abbrev main_c_3 : Ref sig .tc := ⟨.hbm, 62, rfl⟩
abbrev main_v12 : Ref sig .tc := ⟨.hbm, 63, rfl⟩
abbrev main_v13 : Ref sig .tc := ⟨.hbm, 64, rfl⟩
abbrev main_c_4 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_call2_cst : Ref sig .tc := ⟨.hbm, 76, rfl⟩
abbrev main_call2_v0 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_cst : Ref sig .tc := ⟨.hbm, 83, rfl⟩
abbrev main_v29 : Ref sig .tc := ⟨.hbm, 84, rfl⟩
abbrev main_v30 : Ref sig .tc := ⟨.hbm, 85, rfl⟩
abbrev main_cst_5 : Ref sig .tc := ⟨.hbm, 86, rfl⟩
abbrev main_v31 : Ref sig .tc := ⟨.hbm, 87, rfl⟩
abbrev main_cst_6 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_cst_7 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_cst_8 : Ref sig .tc := ⟨.hbm, 102, rfl⟩
abbrev main_v44 : Ref sig .tc := ⟨.hbm, 103, rfl⟩
abbrev main_v45 : Ref sig .tc := ⟨.hbm, 104, rfl⟩
abbrev main_cst_9 : Ref sig .tc := ⟨.hbm, 105, rfl⟩
abbrev main_v46 : Ref sig .tc := ⟨.hbm, 106, rfl⟩
abbrev main_v47 : Ref sig .tc := ⟨.hbm, 107, rfl⟩
abbrev main_cst_10 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩

abbrev nD : Nat := 1
abbrev τ : Topo := Topo.v7x

variable {F : FTy → Type} [FloatOps F]

class Facts₀ : Prop where
  bcast_S1x1000000_S64x1000000_0_1 : S1x1000000.BroadcastsInDim S64x1000000 (![0, 1] : Fin 2 → Fin S64x1000000.rank)
  bcast_S_S256 : S_.BroadcastsInDim S256 (![] : Fin 0 → Fin S256.rank)
  bcast_S256_S256x1_0 : S256.BroadcastsInDim S256x1 (![0] : Fin 1 → Fin S256x1.rank)
  concatenates_S64x256_S64x256_S64x512_d1 : Shape.Concatenates [S64x256, S64x256] S64x512 1
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  reducesTo_S64x1_S1_d0 : S64x1.ReducesTo [0] S1
  h_S_ : 0 < S_.numel
  bcast_S_S1 : S_.BroadcastsInDim S1 (![] : Fin 0 → Fin S1.rank)
  bcast_S64x1_S64x1000000_0_1 : S64x1.BroadcastsInDim S64x1000000 (![0, 1] : Fin 2 → Fin S64x1000000.rank)
  reducesTo_S64x1000000_S1000000_d0 : S64x1000000.ReducesTo [0] S1000000
  bcast_S1000000_S1x1000000_1 : S1000000.BroadcastsInDim S1x1000000 (![1] : Fin 1 → Fin S1x1000000.rank)
  bcast_S_S1x1000000 : S_.BroadcastsInDim S1x1000000 (![] : Fin 0 → Fin S1x1000000.rank)
  gather_S64x1000000_S256x1_S64x256_0_1_n_n_1_1_641_wf : GatherDims.WF S64x1000000 S256x1 S64x256 [0] [1] [] [1] [] 1 ![64, 1]
  dot_S64x512_S512x128_S64x128_1_0_0_1_n_n_wf : DotDims.WF S64x512 S512x128 S64x128 [1] [0] [0] [1] [] []
  dot_S64x128_S128x1_S64x1_1_0_0_1_n_n_wf : DotDims.WF S64x128 S128x1 S64x1 [1] [0] [0] [1] [] []

variable [Facts₀]

def gather_S64x1000000_S256x1_S64x256_0_1_n_n_1_1_641 : GatherDims S64x1000000 S256x1 S64x256 where
  offsetDims := [0]
  collapsedSliceDims := [1]
  operandBatchingDims := []
  startIndicesBatchingDims := []
  startIndexMap := [1]
  indexVectorDim := 1
  sliceSizes := ![64, 1]
  wf := gather_S64x1000000_S256x1_S64x256_0_1_n_n_1_1_641_wf
def dot_S64x512_S512x128_S64x128_1_0_0_1_n_n : DotDims S64x512 S512x128 S64x128 where
  lhsContracting := [1]
  rhsContracting := [0]
  lhsNonContracting := [0]
  rhsNonContracting := [1]
  lhsBatch := []
  rhsBatch := []
  wf := dot_S64x512_S512x128_S64x128_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.KBodyBits.lean ====
import proofs.«104560_j59253368815734_2_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

/-!
# The kernel body's triple

The body reads its three input buffers whole, reads the output buffer once without using what it read, and
overwrites the output buffer whole with one value computed from the three inputs. Hence, started with the inputs at
known contents and the output at any contents, it ends with the inputs unchanged and the output holding that value.
-/

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The zero offset of a rank-two rectangle, written as a vector literal, is the constant-zero function. -/
theorem zero_offset : (![0, 0] : Fin 2 → Nat) = fun _ => 0 := funext fun a => by fin_cases a <;> rfl

/-- The whole 64 x 1 buffer as a rectangle: offset zero, the buffer's own extents. -/
abbrev whole64x1 : Rect S64x1 := Rect.unit (s := S64x1) ![0, 0] S64x1.size Gen.inb_S64x1_S64x1_0_0
/-- The whole 64 x 65536 buffer as a rectangle: offset zero, the buffer's own extents. -/
abbrev whole64x65536 : Rect S64x65536 := Rect.unit (s := S64x65536) ![0, 0] S64x65536.size Gen.inb_S64x65536_S64x65536_0_0
/-- The whole 1 x 65536 buffer as a rectangle: offset zero, the buffer's own extents. -/
abbrev whole1x65536 : Rect S1x65536 := Rect.unit (s := S1x65536) ![0, 0] S1x65536.size Gen.inb_S1x65536_S1x65536_0_0

/-- The one store's rectangle is the whole output buffer, so every index of the buffer lies in it. -/
theorem store_covers (p : Vec F S1x65536 .f32) (y : S1x65536.Idx) :
    ∃ pc ∈ ([⟨whole1x65536, p⟩] : List (View.Piece (Elt F) S1x65536 .f32)), y ∈ pc.1.set :=
  ⟨_, List.mem_singleton_self _, View.mem_set_unit_zero (S := S1x65536) zero_offset Gen.inb_S1x65536_S1x65536_0_0 y⟩

/-- A buffer written once, whole, with the value computed from whole-buffer reads of the inputs, holds exactly the
    value computed from the inputs' contents: reading through the whole rectangle is the identity, and one whole
    store leaves its payload. -/
theorem stored_value (x1 : Vec F S64x65536 .f32) (x2 : Vec F S64x1 .f32) (x3 : Vec F S1x65536 .f32) :
    View.canon [(⟨whole1x65536, Gen.k0_pay1 (View.ld x2 whole64x1) (View.ld x1 whole64x65536) (View.ld x3 whole1x65536)⟩ :
        View.Piece (Elt F) S1x65536 .f32)] = Gen.k0_pay1 x2 x1 x3 := by
  rw [View.canon_unit_zero (S := S1x65536) zero_offset]
  rw [View.ld_unit_zero (S := S64x1) zero_offset, View.ld_unit_zero (S := S64x65536) zero_offset,
    View.ld_unit_zero (S := S1x65536) zero_offset]

set_option maxHeartbeats 1000000 in
/-- The kernel body on whole staging buffers: with the three inputs at contents `x1`, `x2`, `x3` and the output
    buffer at any contents, it runs without fault to a state where the inputs hold what they held and the output
    buffer holds the body's value of the inputs (the weighted column sum of `x1` by `x2`, averaged with `x3`). -/
theorem sound_kernel (c : Dev nD) (E : Set ℕ) (i : grid0.Coords)
    (arg1 : Memref sig .tc .vmem S64x65536 .f32) (harg1 : arg1.IsWhole) (arg2 : Memref sig .tc .vmem S64x1 .f32) (harg2 : arg2.IsWhole)
    (arg3 : Memref sig .tc .vmem S1x65536 .f32) (harg3 : arg3.IsWhole) (arg4 : Memref sig .tc .vmem S1x65536 .f32) (harg4 : arg4.IsWhole)
    (x1 : Vec F S64x65536 .f32) (x2 : Vec F S64x1 .f32) (x3 : Vec F S1x65536 .f32) (K : PUnit → sProp 𝕄) :
    iprop(owns (c : Thread nD τ) arg1 fullShare x1 ∗ owns (c : Thread nD τ) arg2 fullShare x2 ∗ owns (c : Thread nD τ) arg3 fullShare x3
          ∗ (∃ d, owns (c : Thread nD τ) arg4 fullShare d)
        ∗ (iprop(owns (c : Thread nD τ) arg1 fullShare x1 ∗ owns (c : Thread nD τ) arg2 fullShare x2 ∗ owns (c : Thread nD τ) arg3 fullShare x3
              ∗ owns (c : Thread nD τ) arg4 fullShare (Gen.k0_pay1 x2 x1 x3)) -∗ K ⟨⟩))
      ⊢ wp frame (wpE (defs₀ (F := F)) Variants.none c none) E (cc0__fusion_kernel i arg1 harg1 arg2 harg2 arg3 harg3 arg4 harg4) K := by
  simp only [Gen.cc0__fusion_kernel_eq_skeleton]; unfold Gen.cc0__fusion_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact (View.read_writes_eq_canon _ _ _ (store_covers _)).trans (stored_value _ _ _)

end Cert.Kernel.Body

end
-- ==== Proof.KFrameBits.lean ====
import proofs.«104560_j59253368815734_2_alg».proof.Defs
import proofs.«104560_j59253368815734_2_alg».proof.Proof.Gen.Kernel.Frame
import proofs.«104560_j59253368815734_2_alg».proof.Proof.Gen.Pre_finite_inputs
import proofs.«104560_j59253368815734_2_alg».proof.Proof.KBodyBits

/-!
# The program runs to its end and leaves its argument arrays unchanged

The one pipelined region stages three inputs (window 0: 64 x 65536 column blocks of a 64 x 1000000 array; window 1:
the 64 x 1 weights, fetched once; window 2: 1 x 65536 column blocks of a 1 x 1000000 array) and writes one output
(window 3) back block by block. Sixteen blocks of 65536 columns overhang 1000000 columns, so the last fetch is
cut at the array's end and the staging buffer's tail then holds contents nothing names.

The claim proved here says nothing about the output array. So the output window is forgotten: the body is handed
its staging buffer at any contents and hands it back at any contents. The inputs' staging buffers are only read
by the body: each is handed back as it was found, which on the part inside the array is the array's block.
-/

set_option maxRecDepth 16384

noncomputable section

namespace Cert.Kernel.FrameBits

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The windows whose contents the proof does not name: the output window alone. -/
abbrev forgotten : Fin cfg0.W → Bool :=
  fun | 0 => false | 1 => false | 2 => false | 3 => true | ⟨_ + 4, h⟩ => absurd h (Nat.not_lt.2 (Nat.le_add_left _ _))

/-- The proof data of the pipeline on one core. The arrays are as the region finds them. After the body at a point,
    a clipped input's staging buffer holds the array's block on the part the fetch fills (past the array's end the
    filler is the zero word, which nothing reads: these windows are described on the filled part only); the weights'
    buffer holds the weights; the output's is not named. Nothing is carried between points and nothing is owed. -/
def dats (_ : Fin 1) (c : Dev nD) : Dat τ (Elt F) Unit ℕ (UR sig nD τ) ℕ cfg0 c where
  A w := Gen.V m c (Pipeline.arrRef spec0 w)
  after w t := match w with
    | ⟨0, _⟩ => win0_0.fill (grid0.coords t) (fun _ => Scalar.ofBits .f32 0#32) (Gen.iblk m c 0 t)
    | ⟨1, _⟩ => Gen.iblk m c 1 t
    | ⟨2, _⟩ => win0_2.fill (grid0.coords t) (fun _ => Scalar.ofBits .f32 0#32) (Gen.iblk m c 2 t)
    | ⟨3, _⟩ => fun _ => Scalar.ofBits .f32 0#32
  Φ _ := Pipeline.ΦA spec0 c
  q _ := fullShare
  owed _ := 0

/-- The proof data's arrays are the contents at the region's entry. -/
theorem A_eq (c : Dev nD) (w : Fin cfg0.W) : (dats m 0 c).A w = Gen.V m c (Pipeline.arrRef spec0 w) := by
  dsimp only [dats]

/-- What the body leaves in the first input's staging buffer: the block, filled out with zero words. -/
theorem after_0 (c : Dev nD) (t : Fin cfg0.N) :
    (dats m 0 c).after 0 t = win0_0.fill (grid0.coords t) (fun _ => Scalar.ofBits .f32 0#32) (Gen.iblk m c 0 t) := by
  dsimp only [dats]
/-- What the body leaves in the weights' staging buffer: the weights. -/
theorem after_1 (c : Dev nD) (t : Fin cfg0.N) : (dats m 0 c).after 1 t = Gen.iblk m c 1 t := by dsimp only [dats]
/-- What the body leaves in the second input's staging buffer: the block, filled out with zero words. -/
theorem after_2 (c : Dev nD) (t : Fin cfg0.N) :
    (dats m 0 c).after 2 t = win0_2.fill (grid0.coords t) (fun _ => Scalar.ofBits .f32 0#32) (Gen.iblk m c 2 t) := by
  dsimp only [dats]

/-- The first input is fetched at every point, so the body finds in its staging buffer the array's block on the
    part the fetch fills and, past the array's end, whatever the buffer held. -/
theorem before_0 (c : Dev nD) (t : Fin cfg0.N) (d) :
    (dats m 0 c).before 0 t d = win0_0.fill (grid0.coords t) d (Gen.iblk m c 0 t) := by
  unfold Dat.before; rw [if_pos (Gen.fetch0_0 t)]
  unfold Dat.fetched Dat.blockOf Gen.iblk; rw [A_eq]
/-- The weights are fetched once and never clipped: the body finds them in their buffer at every point. -/
theorem before_1 (c : Dev nD) (t : Fin cfg0.N) (d) : (dats m 0 c).before 1 t d = Gen.iblk m c 1 t :=
  Gen.before0_1_of m (dats m 0 c) (A_eq m c 1) (after_1 m c) t d
/-- The second input is fetched at every point, like the first. -/
theorem before_2 (c : Dev nD) (t : Fin cfg0.N) (d) :
    (dats m 0 c).before 2 t d = win0_2.fill (grid0.coords t) d (Gen.iblk m c 2 t) := by
  unfold Dat.before; rw [if_pos (Gen.fetch0_2 t)]
  unfold Dat.fetched Dat.blockOf Gen.iblk; rw [A_eq]

/-! ## The body obligation -/

/-- What the body is called with at a point: the invariant, what the core owes, each input's staging buffer at what
    the pipeline left there, and the output's staging buffer at any contents. -/
def bodyPre (c : Dev nD) (t : Fin cfg0.N) : sProp 𝕄 :=
  iprop((dats m 0 c).Φ t.castSucc ∗ (dats m 0 c).owesAt () t.castSucc
    ∗ (∃ d, owns (c : Thread nD τ) (Gen.st0_0 t) fullShare ((dats m 0 c).before 0 t d))
    ∗ (∃ d, owns (c : Thread nD τ) (Gen.st0_1 t) fullShare ((dats m 0 c).before 1 t d))
    ∗ (∃ d, owns (c : Thread nD τ) (Gen.st0_2 t) fullShare ((dats m 0 c).before 2 t d))
    ∗ (∃ X, owns (c : Thread nD τ) (Gen.st0_3 t) fullShare X))

/-- What the body returns: the same invariant and dues; a clipped input's buffer at contents that agree with the
    named ones on the part inside the array; the weights' buffer at the weights; the output's buffer at any contents. -/
def bodyPost (c : Dev nD) (t : Fin cfg0.N) : sProp 𝕄 :=
  iprop((dats m 0 c).Φ t.succ ∗ (dats m 0 c).owesAt () t.succ
    ∗ (∃ d, owns (c : Thread nD τ) (Gen.st0_0 t) fullShare
        (win0_0.fill (grid0.coords t) d (win0_0.cut (grid0.coords t) ((dats m 0 c).after 0 t))))
    ∗ owns (c : Thread nD τ) (Gen.st0_1 t) fullShare ((dats m 0 c).after 1 t)
    ∗ (∃ d, owns (c : Thread nD τ) (Gen.st0_2 t) fullShare
        (win0_2.fill (grid0.coords t) d (win0_2.cut (grid0.coords t) ((dats m 0 c).after 2 t))))
    ∗ (∃ X, owns (c : Thread nD τ) (Gen.st0_3 t) fullShare X))

/-- The body at any point. It only reads the three inputs' buffers, so it hands each back as found: a clipped
    input's buffer still holds the array's block on the filled part and its old tail beyond, which is all that is
    asked of it; the output's buffer ends at some contents, and nothing is asked of them. -/
theorem sound_body (c : Dev nD) (t : Fin cfg0.N) :
    bodyPre m c t ⊢ wp frame (wpE (defs₀ (F := F)) Variants.none c none) Set.univ (Gen.bodyAt0 t) (fun _ => bodyPost m c t) := by
  unfold bodyPre bodyPost Gen.bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, Window.cut_fill, Window.cut_fill]
  iintro ⟨HΦ, Ho, ⟨%d0, H0⟩, ⟨%d1, H1⟩, ⟨%d2, H2⟩, ⟨%X3, H3⟩⟩
  iapply (Body.sound_kernel c Set.univ (grid0.coords t) _ _ _ _ _ _ _ _
    (win0_0.fill (grid0.coords t) d0 (Gen.iblk m c 0 t)) (Gen.iblk m c 1 t)
    (win0_2.fill (grid0.coords t) d2 (Gen.iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexists d0; iexact H0
  isplitl [H1]; · iexact H1
  isplitl [H2]; · iexists d2; iexact H2
  iexists _; iexact H3

/-- The pipeline rule's body obligation at every point, the output window forgotten. -/
theorem body_obligation (c : Dev nD) :
    BodyObligationLoose (dats (F := F) m 0 c) (defs₀ (F := F)) Variants.none () Set.univ forgotten := fun t => by
  rw [Gen.bigSep_W0, Gen.bigSep_W0]
  exact sound_body m c t

/-! ## The run -/

set_option backward.isDefEq.respectTransparency.types false in
/-- From any memory with zero counters, every weakly fair execution of the program on the TensorCores terminates
    without fault; at the end each input array of the pipeline holds what it held at the region's entry, the output
    array holds some contents, and every other buffer outside the region's scope holds what it held at the entry. -/
theorem run_main : θ_run defs (onTc (τ := τ) (main (F := F))) (s₀ m ρ)
    (Pipeline.RDat.FramePost cfg0 (fun c => (dats m 0 c).toRForget forgotten) (Gen.V m)) :=
  Pipeline.RDat.θ_run_frame cfgs (0 : Fin 1) Gen.launch0 defs₀ Variants.none (fun c => (dats m 0 c).toRForget forgotten) m ρ main
    (hbody := fun c => (body_obligation m c).toRForget) (hshare := fun c => (dats m 0 c).share_full fun _ => rfl)
    (howed := fun _ _ => rfl) (V := Gen.V m) (hmain := Gen.hmain m Variants.none) (hA := A_eq m) (hΦ := fun _ _ => rfl)

/-- The run, read at the six argument arrays: the two the pipeline stages are inputs, never written back, so they
    end as at the region's entry; the other four are outside the pipeline; and no host operation before the region
    writes any of the six, so each ends as launched. -/
theorem frame_any : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨Eq.trans (Eq.mp (congrFun (((dats m 0 c).toRForget forgotten).ArrAt_in 0 rfl _) _) ((h c).1 0))
        ((A_eq m c 0).trans (Gen.V_main_arg0 m c)),
      Eq.trans (Eq.mp (congrFun (((dats m 0 c).toRForget forgotten).ArrAt_in 2 rfl _) _) ((h c).1 2))
        ((A_eq m c 2).trans (Gen.V_main_arg1 m c)),
      ((h c).2 main_arg2 (Pipeline.mem_restRefs_of main_arg2 (by decide) (by decide))).trans (Gen.V_main_arg2 m c),
      ((h c).2 main_arg3 (Pipeline.mem_restRefs_of main_arg3 (by decide) (by decide))).trans (Gen.V_main_arg3 m c),
      ((h c).2 main_arg4 (Pipeline.mem_restRefs_of main_arg4 (by decide) (by decide))).trans (Gen.V_main_arg4 m c),
      ((h c).2 main_arg5 (Pipeline.mem_restRefs_of main_arg5 (by decide) (by decide))).trans (Gen.V_main_arg5 m c)⟩)
    (run_main m ρ)

/-- The program as printed, on machine words: it terminates without fault and its six argument arrays end unchanged
    (whatever the precondition says of them). -/
theorem frame : Cert.frame_Kernel := fun m ρ _ => frame_any (F := Bits) m ρ

end Cert.Kernel.FrameBits

end
-- ==== Proof.Spec.lean ====
/-
  The fused token, column by column: half the global token's entry plus half the sum over the 64 client rows of
  the row's entry times the row's attention weight — the one function of the arrays both programs compute.
-/
import Idealize.ShloMosaic.Lib.ValueIdx

noncomputable section

open scoped BigOperators

namespace Cert.Fusion

open Idealize.ShloMosaic Idealize.ShloMosaic.ValueIdx

/-- One half, as the float word both programs carry. -/
abbrev half : EReal := Ideal.ofBits .f32 0x3F000000#32

/-- The fused token at column `d` of a width-`n` problem, from client rows `ct`, the global token `g` and the 64 weights `w`. -/
def fusedAt {n : ℕ} (ct : (⟨2, ![64, n]⟩ : Shape).Idx → EReal) (g : (⟨2, ![1, n]⟩ : Shape).Idx → EReal)
    (w : (⟨2, ![64, 1]⟩ : Shape).Idx → EReal) (d : Fin n) : EReal :=
  half * g (ix2 (0 : Fin 1) d) + half * ∑ k : Fin 64, ct (ix2 k d) * w (ix2 k (0 : Fin 1))

/-- The fused token as a 1×n array. -/
def fused {n : ℕ} (ct : (⟨2, ![64, n]⟩ : Shape).Idx → EReal) (g : (⟨2, ![1, n]⟩ : Shape).Idx → EReal)
    (w : (⟨2, ![64, 1]⟩ : Shape).Idx → EReal) : (⟨2, ![1, n]⟩ : Shape).Idx → EReal :=
  fun j => fusedAt ct g w (j 1)

end Cert.Fusion

end
-- ==== Proof.KDefs.lean ====
/-
  The proof data of the fusion kernel's pipeline at the exact values. The 1000000 columns are cut into 16 blocks
  of 65536; the last block overhangs the arrays, and past the arrays' end a staging buffer holds words nothing
  names. After the body at a grid point the client and global buffers hold their blocks and the output buffer
  holds that block of the fused token, each filled out past the arrays' end with zeros — the filler is never
  read: the body's sum runs down the 64 rows, lane by lane, and only the lanes inside the array are written back.
-/
import proofs.«104560_j59253368815734_2_alg».proof.Proof.Spec
import proofs.«104560_j59253368815734_2_alg».proof.Proof.Gen.KernelIdeal.Frame

set_option maxRecDepth 16384

noncomputable section

namespace Cert.KernelIdeal.Data

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen Cert.Fusion

local notation "𝕄" => MT nD τ sig Unit (Elt Ideal) ℕ (UR sig nD τ) ℕ

variable (m : (ℓ : Loc nD τ sig) → Buf (Elt Ideal) ℓ) (ρ : Dev nD → PrngReg)

/-- The fused token of the arrays as the region finds them: the client tokens, the global token, and the
    attention weights the host computed. -/
def G (c : Dev nD) : Buf (Elt Ideal) ((cfg0.win 3).arr.view.loc (c.tc : Thread nD τ)) :=
  fused (n := 1000000) (V m c main_arg0) (V m c main_arg1) (V m c main_v25)

/-- The zero filler of a block's lanes past the array's end. -/
abbrev zeros {S : Shape} : S.Idx → Elt Ideal .f32 := fun _ => (0 : EReal)

/-- The proof data: the arrays as the region finds them; after the body the two clipped inputs' buffers at their
    blocks filled out with zeros, the weights' buffer at the weights, the output's buffer at its block of the fused
    token filled out with zeros; the class invariant; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) zeros (iblk m c 0 t)
    | ⟨1, _⟩ => iblk m c 1 t
    | ⟨2, _⟩ => win0_2.fill (grid0.coords t) zeros (iblk m c 2 t)
    | ⟨3, _⟩ => win0_3.fill (grid0.coords t) zeros ((win0_3.blk t).view.read (Elt Ideal) (G m c))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) :
    (dats m 0 c).after 0 t = win0_0.fill (grid0.coords t) zeros (iblk m c 0 t) := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = win0_2.fill (grid0.coords t) zeros (iblk m c 2 t) := by dsimp only [dats]
theorem after0_3 (c : Dev nD) (t : Fin cfg0.N) :
    (dats m 0 c).after 3 t = win0_3.fill (grid0.coords t) zeros ((win0_3.blk t).view.read (Elt Ideal) (G m c)) := by
  dsimp only [dats]

/-- The client window is fetched at every point: the body finds its block on the lanes inside the array and
    whatever the buffer held, `d`, past them. -/
theorem before0_0 (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk; rw [A_eq]
/-- The weights' window is fetched once and never clipped: the body finds the weights at every point. -/
theorem before0_1 (c : Dev nD) (t : Fin cfg0.N) (d) : (dats m 0 c).before 1 t d = iblk m c 1 t :=
  before0_1_of m (dats m 0 c) (A_eq m c 1) (after0_1 m c) t d
/-- The global token's window likewise is fetched at every point. -/
theorem before0_2 (c : Dev nD) (t : Fin cfg0.N) (d) :
    (dats m 0 c).before 2 t d = win0_2.fill (grid0.coords t) d (iblk m c 2 t) := by
  unfold Dat.before; rw [if_pos (fetch0_2 t)]
  unfold Dat.fetched Dat.blockOf iblk; rw [A_eq]

end Cert.KernelIdeal.Data

end
-- ==== Proof.LibColSum.lean ====
/-
  A column sum read at an index, over the extended reals.

  For an a × b matrix, a `vector.multi_reduction <add>` over the leading axis (the rows) from the neutral
  accumulator reads, at column q, the sum over the a rows p of the entries (p, q): what `jnp.sum(x, axis=0)` is,
  lane by lane, at the exact values.
-/
import Idealize.ShloMosaic.Lib.ValueIdx
import Idealize.ShloMosaic.PureOps.Ideal.Laws

noncomputable section

open scoped BigOperators

namespace Idealize.ShloMosaic.ColSum

open Idealize.ShloMosaic Idealize.ShloMosaic.ValueIdx

/-- The sum over the rows of an `[a, b]` array, at column `q`: the sum over `p` of the entries `(p, q)`. -/
theorem multiReduction_rows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ p : Fin a, src (ix2 p q) := by
  refine (Ideal.multiReduction_add_single src acc h hφ hacc (ix1 q)).trans ?_
  show ∑ p : Fin a, src (h.lift (ix1 q) p) = ∑ p : Fin a, src (ix2 p q)
  refine Finset.sum_congr rfl fun p _ => congrArg src ?_
  exact funext fun c => Fin.ext (by match c with | ⟨0, _⟩ => rfl | ⟨1, _⟩ => rfl)

end Idealize.ShloMosaic.ColSum

end
-- ==== Proof.LibColumn.lean ====
/-
  A column read at an index.

  A vector of length a cast to an a-by-1 column reads, at (i, u), the vector at i; an a-by-1 column
  broadcast across b lanes reads, at (p, c), the column's entry of row p. These are the keep-dims forms a
  row reduction leaves behind: the reduced value of row p, used again at every lane of that row.
-/
import Idealize.ShloMosaic.Lib.ValueLayout

namespace Idealize.ShloMosaic.ColumnIdx

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnIdx
-- ==== Proof.KRead.lean ====
/-
  The kernel body's arithmetic read at one lane: the value stored at lane `q` of the output block is half the
  global block's entry at `q` plus half the sum down the 64 rows of the client block's entry at (row, `q`) times
  the row's weight. Only column `q` of the blocks is read: whatever lies in other lanes does not matter.
-/
import proofs.«104560_j59253368815734_2_alg».proof.Proof.Spec
import proofs.«104560_j59253368815734_2_alg».proof.Proof.LibColSum
import proofs.«104560_j59253368815734_2_alg».proof.Proof.LibColumn
import proofs.«104560_j59253368815734_2_alg».proof.Proof.Gen.KernelIdeal.Skeleton
import Idealize.ShloMosaic.Lib.Pipeline.Value

noncomputable section

open scoped BigOperators

namespace Cert.KernelIdeal.PayRead

open Idealize.ShloMosaic Idealize.ShloMosaic.ValueIdx Cert.KernelIdeal Cert.KernelIdeal.Gen Cert.Fusion

/-- A length-65536 vector viewed as one row reads, at (0, q), the vector at q. -/
theorem row_view_apply (v : FVec Ideal S65536 .f32) (q : Fin 65536) :
    shapeCast S1x65536 v shapeCasts_S65536_S1x65536 (ix2 (0 : Fin 1) q) = v (ix1 q) :=
  shapeCast_apply v shapeCasts_S65536_S1x65536 (ix2 (0 : Fin 1) q) (ix1 q) (by
    rw [Shape.rowMajor_val_one, Shape.rowMajor_val_two]
    show q.val = 0 * 65536 + q.val
    omega)

/-- The stored value at lane `q`. -/
theorem pay_apply (x2 : FVec Ideal S64x1 .f32) (x1 : FVec Ideal S64x65536 .f32) (x3 : FVec Ideal S1x65536 .f32) (q : Fin 65536) :
    k0_pay1 (F := Ideal) x2 x1 x3 (ix2 (0 : Fin 1) q)
      = half * x3 (ix2 (0 : Fin 1) q) + half * ∑ k : Fin 64, x1 (ix2 k q) * x2 (ix2 k (0 : Fin 1)) := by
  show half * x3 (ix2 (0 : Fin 1) q)
      + half * (shapeCast S1x65536
          (multiReduction .add [0] S65536
            (mulf x1 (broadcastTo S64x65536 (shapeCast S64x1 x2 shapeCasts_S64x1_S64x1) broadcasts_S64x1_S64x65536))
            0x00000000#32 reduces_S64x65536_S65536 (.inl rfl) rfl)
          shapeCasts_S65536_S1x65536 (ix2 (0 : Fin 1) q)) = _
  refine congrArg (fun z => half * x3 (ix2 (0 : Fin 1) q) + half * z) ?_
  refine (row_view_apply _ q).trans ?_
  refine (Idealize.ShloMosaic.ColSum.multiReduction_rows_apply
    (mulf x1 (broadcastTo S64x65536 (shapeCast S64x1 x2 shapeCasts_S64x1_S64x1) broadcasts_S64x1_S64x65536))
    0x00000000#32 reduces_S64x65536_S65536 (.inl rfl) rfl q).trans ?_
  refine Finset.sum_congr rfl fun k _ => ?_
  show x1 (ix2 k q) * broadcastTo S64x65536 (shapeCast S64x1 x2 shapeCasts_S64x1_S64x1) broadcasts_S64x1_S64x65536 (ix2 k q) = _
  refine congrArg (fun z => x1 (ix2 k q) * z) ?_
  refine (Idealize.ShloMosaic.ColumnIdx.broadcastTo_a1_ab_apply _ broadcasts_S64x1_S64x65536 k q).trans ?_
  exact congrFun (shapeCast_self x2 shapeCasts_S64x1_S64x1) _

/-- If lane `q` of the three buffers holds column `d` of the arrays — the global buffer the global token's entry,
    the client buffer the 64 client entries, the weights' buffer the 64 weights — the stored value at lane `q`
    is the fused token at column `d`. -/
theorem pay_eq_fused {n : ℕ} (x2 : FVec Ideal S64x1 .f32) (x1 : FVec Ideal S64x65536 .f32) (x3 : FVec Ideal S1x65536 .f32) (q : Fin 65536)
    (ct : (⟨2, ![64, n]⟩ : Shape).Idx → EReal) (g : (⟨2, ![1, n]⟩ : Shape).Idx → EReal) (w : (⟨2, ![64, 1]⟩ : Shape).Idx → EReal)
    (d : Fin n) (h3 : x3 (ix2 (0 : Fin 1) q) = g (ix2 (0 : Fin 1) d)) (h1 : ∀ k : Fin 64, x1 (ix2 k q) = ct (ix2 k d))
    (h2 : ∀ k : Fin 64, x2 (ix2 k (0 : Fin 1)) = w (ix2 k (0 : Fin 1))) :
    k0_pay1 (F := Ideal) x2 x1 x3 (ix2 (0 : Fin 1) q) = fusedAt ct g w d := by
  refine (pay_apply x2 x1 x3 q).trans ?_
  unfold fusedAt
  rw [h3]
  refine congrArg (fun z => half * g (ix2 (0 : Fin 1) d) + half * z) (Finset.sum_congr rfl fun k _ => ?_)
  rw [h1 k, h2 k]

end Cert.KernelIdeal.PayRead

end
-- ==== Proof.KBlocks.lean ====
/-
  Blocks and columns. At grid point t the three moving windows sit at columns t·65536 … of their arrays, cut at
  column 1000000 (only the last block is cut, to 16960 lanes). On the lanes inside the array the body's result is
  the block of the fused token; the 16 blocks cover the 1000000 columns.
-/
import proofs.«104560_j59253368815734_2_alg».proof.Proof.KDefs
import proofs.«104560_j59253368815734_2_alg».proof.Proof.KRead
import Idealize.ShloMosaic.Lib.Pipeline.Value

set_option maxRecDepth 16384

noncomputable section

namespace Cert.KernelIdeal.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen Cert.Fusion
open Idealize.ShloMosaic.ValueIdx Cert.KernelIdeal.Data Cert.KernelIdeal.PayRead

variable (m : (ℓ : Loc nD τ sig) → Buf (Elt Ideal) ℓ)

/-- A filled block read at an index the transfer moves is the block read there. -/
theorem fill_apply_of_lt {G : Pipeline.Grid} (w : Pipeline.Window sig G) {α : Type} (i : G.Coords) (d : w.block.Idx → α)
    (g : (w.xblock i).Idx → α) (j : w.block.Idx) (h : ∀ a, (j a).val < w.xsize i a) :
    w.fill i d g j = g (fun a => ⟨(j a).val, h a⟩) := by
  unfold Pipeline.Window.fill; rw [dif_pos ((w.moved_iff i j).mpr h)]

/-- Where the windows sit at point t, and how many rows and lanes of each block lie inside its array: decided
    once over the 16 points. -/
theorem grid_facts : ∀ t : Fin cfg0.N,
    (win0_0.index t 0 = 0 ∧ win0_0.index t 1 = t.val) ∧ (win0_1.index t 0 = 0 ∧ win0_1.index t 1 = 0)
    ∧ (win0_2.index t 0 = 0 ∧ win0_2.index t 1 = t.val) ∧ (win0_3.index t 0 = 0 ∧ win0_3.index t 1 = t.val)
    ∧ (win0_0.xsize (grid0.coords t) 0 = 64 ∧ win0_1.xsize (grid0.coords t) 0 = 64 ∧ win0_1.xsize (grid0.coords t) 1 = 1
        ∧ win0_2.xsize (grid0.coords t) 0 = 1 ∧ win0_3.xsize (grid0.coords t) 0 = 1)
    ∧ win0_0.xsize (grid0.coords t) 1 = min 65536 (1000000 - t.val * 65536)
    ∧ win0_2.xsize (grid0.coords t) 1 = min 65536 (1000000 - t.val * 65536)
    ∧ win0_3.xsize (grid0.coords t) 1 = min 65536 (1000000 - t.val * 65536) :=
  (by decide +kernel : ∀ t : Fin grid0.N, _)

/-- On the lanes inside the array, the body's result on the fetched buffers — whatever fills them past the
    array's end — is the output's block of the fused token. -/
theorem pay_cut (c : Dev nD) (t : Fin cfg0.N) (d0 : S64x65536.Idx → Elt Ideal .f32) (d2 : S1x65536.Idx → Elt Ideal .f32) :
    win0_3.cut (grid0.coords t)
        (k0_pay1 (F := Ideal) (iblk m c 1 t) (win0_0.fill (grid0.coords t) d0 (iblk m c 0 t)) (win0_2.fill (grid0.coords t) d2 (iblk m c 2 t)))
      = (win0_3.blk t).view.read (Elt Ideal) (G m c) := by
  funext j
  obtain ⟨⟨i00, i01⟩, ⟨i10, i11⟩, ⟨i20, i21⟩, ⟨i30, i31⟩, ⟨x00, x10, x11, x20, x30⟩, x01, x21, x31⟩ := grid_facts t
  have hN : t.val < 16 := lt_of_lt_of_eq t.isLt N_0
  have hj0 : (j 0).val < 1 := lt_of_lt_of_eq (j 0).isLt x30
  have hj1 : (j 1).val < min 65536 (1000000 - t.val * 65536) := lt_of_lt_of_eq (j 1).isLt x31
  have hq : (j 1).val < 65536 := by omega
  have hd : t.val * 65536 + (j 1).val < 1000000 := by omega
  have hxinj : win0_3.xinj (grid0.coords t) j = ix2 (0 : Fin 1) (⟨(j 1).val, hq⟩ : Fin 65536) :=
    funext fun a => Fin.ext (by match a with | ⟨0, _⟩ => (show (j 0).val = 0; omega) | ⟨1, _⟩ => rfl)
  show k0_pay1 (F := Ideal) _ _ _ (win0_3.xinj (grid0.coords t) j) = G m c ((win0_3.blk t).view.emb j)
  rw [hxinj]
  refine (pay_eq_fused (n := 1000000) _ _ _ ⟨(j 1).val, hq⟩ (V m c main_arg0) (V m c main_arg1) (V m c main_v25)
    ⟨t.val * 65536 + (j 1).val, hd⟩ ?_ ?_ ?_).trans ?_
  · -- the global buffer's lane holds the global token's column
    have hlt : ∀ a, ((ix2 (0 : Fin 1) (⟨(j 1).val, hq⟩ : Fin 65536) : S1x65536.Idx) a).val < win0_2.xsize (grid0.coords t) a := fun a => by
      match a with
      | ⟨0, _⟩ => rw [show win0_2.xsize (grid0.coords t) (⟨0, by decide⟩ : Fin 2) = 1 from x20]; exact Nat.one_pos
      | ⟨1, _⟩ => rw [show win0_2.xsize (grid0.coords t) (⟨1, by decide⟩ : Fin 2) = _ from x21]; exact hj1
    rw [fill_apply_of_lt win0_2 (grid0.coords t) d2 (iblk m c 2 t) _ hlt]
    show V m c main_arg1 ((win0_2.blk t).view.emb _) = V m c main_arg1 _
    refine congrArg (V m c main_arg1) (funext fun a => Fin.ext ?_)
    match a with
    | ⟨0, _⟩ => show win0_2.index t 0 * 1 + 1 * 0 = 0; rw [i20]
    | ⟨1, _⟩ => show win0_2.index t 1 * 65536 + 1 * (j 1).val = t.val * 65536 + (j 1).val; rw [i21]; omega
  · -- the client buffer's lane holds the 64 client entries of the column
    intro k
    have hlt : ∀ a, ((ix2 k (⟨(j 1).val, hq⟩ : Fin 65536) : S64x65536.Idx) a).val < win0_0.xsize (grid0.coords t) a := fun a => by
      match a with
      | ⟨0, _⟩ => rw [show win0_0.xsize (grid0.coords t) (⟨0, by decide⟩ : Fin 2) = 64 from x00]; exact k.isLt
      | ⟨1, _⟩ => rw [show win0_0.xsize (grid0.coords t) (⟨1, by decide⟩ : Fin 2) = _ from x01]; exact hj1
    rw [fill_apply_of_lt win0_0 (grid0.coords t) d0 (iblk m c 0 t) _ hlt]
    show V m c main_arg0 ((win0_0.blk t).view.emb _) = V m c main_arg0 _
    refine congrArg (V m c main_arg0) (funext fun a => Fin.ext ?_)
    match a with
    | ⟨0, _⟩ => show win0_0.index t 0 * 64 + 1 * k.val = k.val; rw [i00]; omega
    | ⟨1, _⟩ => show win0_0.index t 1 * 65536 + 1 * (j 1).val = t.val * 65536 + (j 1).val; rw [i01]; omega
  · -- the weights' buffer holds the weights
    intro k
    show V m c main_v25 ((win0_1.blk t).view.emb (ix2 k (0 : Fin 1))) = V m c main_v25 _
    refine congrArg (V m c main_v25) (funext fun a => Fin.ext ?_)
    match a with
    | ⟨0, _⟩ => show win0_1.index t 0 * 64 + 1 * k.val = k.val; rw [i10]; omega
    | ⟨1, _⟩ => show win0_1.index t 1 * 1 + 1 * 0 = 0; rw [i11]
  · -- and the output block's lane is that column of the fused token
    show fusedAt _ _ _ _ = fusedAt (V m c main_arg0) (V m c main_arg1) (V m c main_v25) (((win0_3.blk t).view.emb j) 1)
    refine congrArg (fusedAt (V m c main_arg0) (V m c main_arg1) (V m c main_v25)) (Fin.ext ?_)
    show t.val * 65536 + (j 1).val = win0_3.index t 1 * 65536 + 1 * (j 1).val
    rw [i31]; omega

/-- What point `t` writes back is its block of the fused token. -/
theorem flushed_eq (c : Dev nD) (t : Fin cfg0.N) :
    (dats m 0 c).flushed 3 t = ((cfg0.win 3).blk t).view.read (Elt Ideal) (G m c) := by
  show win0_3.cut (grid0.coords t) ((dats m 0 c).after 3 t) = _
  rw [after0_3, win0_3.cut_fill]

/-- Column `d` of the result lies in the block of point `d / 65536`: the sixteen blocks, the last one cut at
    column 1000000, cover the array. -/
theorem cover (c : Dev nD) (i : ((cfg0.win 3).arr.view.loc (c.tc : Thread nD τ)).2.ty.Idx) :
    ∃ t : Fin cfg0.N, (cfg0.win 3).flush t = true ∧ i ∈ ((cfg0.win 3).blk t).view.set := by
  have h0 : (i 0).val < 1 := (i 0).isLt
  have h1 : (i 1).val < 1000000 := (i 1).isLt
  have hN : (i 1).val / 65536 < cfg0.N := by rw [show cfg0.N = 16 from N_0]; omega
  refine ⟨⟨(i 1).val / 65536, hN⟩, flush0_3 _, ?_⟩
  obtain ⟨-, -, -, ⟨i30, i31⟩, ⟨-, -, -, -, x30⟩, -, -, x31⟩ := grid_facts ⟨(i 1).val / 65536, hN⟩
  show i ∈ ((View.whole main_v26).slice (win0_3.rect ⟨(i 1).val / 65536, hN⟩)).set
  rw [View.set_slice_whole, Rect.mem_set_unit]
  intro a
  match a with
  | ⟨0, _⟩ =>
    show win0_3.index ⟨(i 1).val / 65536, hN⟩ 0 * 1 ≤ (i 0).val
      ∧ (i 0).val < win0_3.index ⟨(i 1).val / 65536, hN⟩ 0 * 1 + win0_3.xsize (grid0.coords ⟨(i 1).val / 65536, hN⟩) 0
    rw [i30, x30]; omega
  | ⟨1, _⟩ =>
    show win0_3.index ⟨(i 1).val / 65536, hN⟩ 1 * 65536 ≤ (i 1).val
      ∧ (i 1).val < win0_3.index ⟨(i 1).val / 65536, hN⟩ 1 * 65536 + win0_3.xsize (grid0.coords ⟨(i 1).val / 65536, hN⟩) 1
    rw [i31, x31]
    show (i 1).val / 65536 * 65536 ≤ (i 1).val ∧ (i 1).val < (i 1).val / 65536 * 65536 + min 65536 (1000000 - (i 1).val / 65536 * 65536)
    omega

/-- After the run the result array is the fused token of the arrays the region found. -/
theorem final (c : Dev nD) : (dats m 0 c).arrAt 3 cfg0.N = G m c :=
  (dats m 0 c).arrAt_eq_of_cover 3 (G m c) (fun t _ => flushed_eq m c t) (cover c)

end Cert.KernelIdeal.Blocks

end
-- ==== Proof.KBodyIdeal.lean ====
import proofs.«104560_j59253368815734_2_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

/-!
# The kernel body's triple

The body reads its three input buffers whole, reads the output buffer once without using what it read, and
overwrites the output buffer whole with one value computed from the three inputs. Hence, started with the inputs at
known contents and the output at any contents, it ends with the inputs unchanged and the output holding that value.
-/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The zero offset of a rank-two rectangle, written as a vector literal, is the constant-zero function. -/
theorem zero_offset : (![0, 0] : Fin 2 → Nat) = fun _ => 0 := funext fun a => by fin_cases a <;> rfl

/-- The whole 64 x 1 buffer as a rectangle: offset zero, the buffer's own extents. -/
abbrev whole64x1 : Rect S64x1 := Rect.unit (s := S64x1) ![0, 0] S64x1.size Gen.inb_S64x1_S64x1_0_0
/-- The whole 64 x 65536 buffer as a rectangle: offset zero, the buffer's own extents. -/
abbrev whole64x65536 : Rect S64x65536 := Rect.unit (s := S64x65536) ![0, 0] S64x65536.size Gen.inb_S64x65536_S64x65536_0_0
/-- The whole 1 x 65536 buffer as a rectangle: offset zero, the buffer's own extents. -/
abbrev whole1x65536 : Rect S1x65536 := Rect.unit (s := S1x65536) ![0, 0] S1x65536.size Gen.inb_S1x65536_S1x65536_0_0

/-- The one store's rectangle is the whole output buffer, so every index of the buffer lies in it. -/
theorem store_covers (p : Vec F S1x65536 .f32) (y : S1x65536.Idx) :
    ∃ pc ∈ ([⟨whole1x65536, p⟩] : List (View.Piece (Elt F) S1x65536 .f32)), y ∈ pc.1.set :=
  ⟨_, List.mem_singleton_self _, View.mem_set_unit_zero (S := S1x65536) zero_offset Gen.inb_S1x65536_S1x65536_0_0 y⟩

/-- A buffer written once, whole, with the value computed from whole-buffer reads of the inputs, holds exactly the
    value computed from the inputs' contents: reading through the whole rectangle is the identity, and one whole
    store leaves its payload. -/
theorem stored_value (x1 : Vec F S64x65536 .f32) (x2 : Vec F S64x1 .f32) (x3 : Vec F S1x65536 .f32) :
    View.canon [(⟨whole1x65536, Gen.k0_pay1 (View.ld x2 whole64x1) (View.ld x1 whole64x65536) (View.ld x3 whole1x65536)⟩ :
        View.Piece (Elt F) S1x65536 .f32)] = Gen.k0_pay1 x2 x1 x3 := by
  rw [View.canon_unit_zero (S := S1x65536) zero_offset]
  rw [View.ld_unit_zero (S := S64x1) zero_offset, View.ld_unit_zero (S := S64x65536) zero_offset,
    View.ld_unit_zero (S := S1x65536) zero_offset]

set_option maxHeartbeats 1000000 in
/-- The kernel body on whole staging buffers: with the three inputs at contents `x1`, `x2`, `x3` and the output
    buffer at any contents, it runs without fault to a state where the inputs hold what they held and the output
    buffer holds the body's value of the inputs (the weighted column sum of `x1` by `x2`, averaged with `x3`). -/
theorem sound_kernel (c : Dev nD) (E : Set ℕ) (i : grid0.Coords)
    (arg1 : Memref sig .tc .vmem S64x65536 .f32) (harg1 : arg1.IsWhole) (arg2 : Memref sig .tc .vmem S64x1 .f32) (harg2 : arg2.IsWhole)
    (arg3 : Memref sig .tc .vmem S1x65536 .f32) (harg3 : arg3.IsWhole) (arg4 : Memref sig .tc .vmem S1x65536 .f32) (harg4 : arg4.IsWhole)
    (x1 : Vec F S64x65536 .f32) (x2 : Vec F S64x1 .f32) (x3 : Vec F S1x65536 .f32) (K : PUnit → sProp 𝕄) :
    iprop(owns (c : Thread nD τ) arg1 fullShare x1 ∗ owns (c : Thread nD τ) arg2 fullShare x2 ∗ owns (c : Thread nD τ) arg3 fullShare x3
          ∗ (∃ d, owns (c : Thread nD τ) arg4 fullShare d)
        ∗ (iprop(owns (c : Thread nD τ) arg1 fullShare x1 ∗ owns (c : Thread nD τ) arg2 fullShare x2 ∗ owns (c : Thread nD τ) arg3 fullShare x3
              ∗ owns (c : Thread nD τ) arg4 fullShare (Gen.k0_pay1 x2 x1 x3)) -∗ K ⟨⟩))
      ⊢ wp frame (wpE (defs₀ (F := F)) Variants.none c none) E (cc0__fusion_kernel i arg1 harg1 arg2 harg2 arg3 harg3 arg4 harg4) K := by
  simp only [Gen.cc0__fusion_kernel_eq_skeleton]; unfold Gen.cc0__fusion_kernel_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact (View.read_writes_eq_canon _ _ _ (store_covers _)).trans (stored_value _ _ _)

end Cert.KernelIdeal.Body

end
-- ==== Proof.KRun.lean ====
/-
  The run of the idealized kernel's program. At each grid point the body finds the client and global blocks (with
  anything past the arrays' end) and the weights, and leaves in the output buffer a value that, on the lanes inside
  the array, is the block of the fused token; the pipeline writes those lanes back; the 16 blocks cover the array.
  So every execution ends with the result array at the fused token of the arrays the region found, and the
  arguments unchanged.
-/
import proofs.«104560_j59253368815734_2_alg».proof.Proof.KBlocks
import proofs.«104560_j59253368815734_2_alg».proof.Proof.KBodyIdeal

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen Cert.Fusion
open Idealize.ShloMosaic.ValueIdx Cert.KernelIdeal.Data Cert.KernelIdeal.Blocks

local notation "𝕄" => MT nD τ sig Unit (Elt Ideal) ℕ (UR sig nD τ) ℕ

variable (m : (ℓ : Loc nD τ sig) → Buf (Elt Ideal) ℓ) (ρ : Dev nD → PrngReg)

/-- What the body is called with at point `t`: the invariant, what the core owes, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it returns: a clipped window's buffer is described on the lanes inside the array only. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ (∃ d, owns (c : Thread nD τ) (st0_2 t) fullShare
        (win0_2.fill (grid0.coords t) d (win0_2.cut (grid0.coords t) ((dats m 0 c).after 2 t))))
    ∗ (∃ d, owns (c : Thread nD τ) (st0_3 t) fullShare
        (win0_3.fill (grid0.coords t) d (win0_3.cut (grid0.coords t) ((dats m 0 c).after 3 t)))))

/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, win0_0.cut_fill, win0_2.cut_fill, win0_3.cut_fill]
  iintro ⟨HΦ, Ho, ⟨%d0, H0⟩, ⟨%d1, H1⟩, ⟨%d2, H2⟩, ⟨%d3, H3⟩⟩
  iapply (Cert.KernelIdeal.Body.sound_kernel c Set.univ (grid0.coords t) _ _ _ _ _ _ _ _
    (win0_0.fill (grid0.coords t) d0 (iblk m c 0 t)) (iblk m c 1 t) (win0_2.fill (grid0.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexists d0; iexact H0
  isplitl [H1]; · iexact H1
  isplitl [H2]; · iexists d2; iexact H2
  iexists (k0_pay1 (F := Ideal) (iblk m c 1 t) (win0_0.fill (grid0.coords t) d0 (iblk m c 0 t)) (win0_2.fill (grid0.coords t) d2 (iblk m c 2 t)))
  rw [← pay_cut m c t d0 d2, win0_3.fill_cut]
  iexact H3

/-- The library's body obligation, at every point. -/
theorem body_obligation (c : Dev nD) : BodyObligationLoose (dats m 0 c) (defs₀ (F := Ideal)) Variants.none () Set.univ := fun t => by
  rw [bigSep_W0, bigSep_W0]
  exact sound_body m c t

set_option backward.isDefEq.respectTransparency.types false in
/-- Every weakly fair execution of the program terminates with each array of the pipeline at what the proof data
    computes and every other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the argument arrays end unchanged. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The value: the result array ends at the fused token of the arrays the region found, the arguments unchanged. -/
theorem run_value : θ_run defs (onTc (τ := τ) (main (F := Ideal))) ⟨m, fun _ => 0, ρ⟩ (fun r => ∀ c : Dev nD,
      r.2.mem ((c.tc : Thread nD τ).loc main_v26) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 3).trans (final m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.KernelIdeal.Run

end
-- ==== Proof.KStages.lean ====
/-
  The host side of the kernel's program, as pure functions of the argument arrays (at any float instance):
  the 64×512 attention input (the first 256 columns of the client tokens beside the first 256 columns of the
  global token spread over the 64 rows) and the attention weights computed from it (two affine layers with a
  clamp at zero between them, then a softmax down the 64 rows) — the 64×1 array the fusion kernel is launched on.
-/
import proofs.«104560_j59253368815734_2_alg».proof.KernelIdeal

noncomputable section

namespace Cert.KernelIdeal.Stages

open Idealize.ShloMosaic Cert.KernelIdeal Cert.KernelIdeal.Facts₀

variable {F : FTy → Type} [FloatOps F] [Facts]

/-- The attention input: the leading 256 columns of the client tokens, then those of the global token on every row. -/
def attnIn (a0 : (⟨S64x1000000, .f32⟩ : BufTy).Contents (Elt F)) (a1 : (⟨S1x1000000, .f32⟩ : BufTy).Contents (Elt F)) :
    (⟨S64x512, .f32⟩ : BufTy).Contents (Elt F) :=
  concatenate S64x512 1
    [⟨S64x256, extractStridedSlice S64x256 ![0, 0] a0 slices_S64x1000000_S64x256_0_0⟩,
     ⟨S64x256, broadcastInDim S64x256 ![0, 1] bcast_S1x256_S64x256_0_1
        (extractStridedSlice S1x256 ![0, 0] a1 slices_S1x1000000_S1x256_0_0)⟩]
    concatenates_S64x256_S64x256_S64x512_d1

/-- The scores before the softmax: x·W1 + b1 clamped at zero, times W2, plus b2, divided by the temperature 1. -/
def scores (x : (⟨S64x512, .f32⟩ : BufTy).Contents (Elt F)) (a2 : (⟨S512x128, .f32⟩ : BufTy).Contents (Elt F))
    (a3 : (⟨S128, .f32⟩ : BufTy).Contents (Elt F)) (a4 : (⟨S128x1, .f32⟩ : BufTy).Contents (Elt F))
    (a5 : (⟨S1, .f32⟩ : BufTy).Contents (Elt F)) : (⟨S64x1, .f32⟩ : BufTy).Contents (Elt F) :=
  Host.divf
    (addf
      (Host.dotGeneral dot_S64x128_S128x1_S64x1_1_0_0_1_n_n none
        (maximumf
          (addf (Host.dotGeneral dot_S64x512_S512x128_S64x128_1_0_0_1_n_n none x a2)
            (broadcastInDim S64x128 ![0, 1] bcast_S1x128_S64x128_0_1 (broadcastInDim S1x128 ![1] bcast_S128_S1x128_1 a3)))
          (broadcastInDim S64x128 ![] bcast_S_S64x128 (constant S_ .f32 0x00000000#32)))
        a4)
      (broadcastInDim S64x1 ![0, 1] bcast_S1x1_S64x1_0_1 (broadcastInDim S1x1 ![1] bcast_S1_S1x1_1 a5)))
    (broadcastInDim S64x1 ![] bcast_S_S64x1 (constant S_ .f32 0x3F800000#32))

/-- exp of the scores less their maximum down the rows. -/
def expShifted (s : (⟨S64x1, .f32⟩ : BufTy).Contents (Elt F)) : (⟨S64x1, .f32⟩ : BufTy).Contents (Elt F) :=
  Host.exp
    (subf s
      (broadcastInDim S64x1 ![0, 1] bcast_S1x1_S64x1_0_1
        (broadcastInDim S1x1 ![1] bcast_S1_S1x1_1
          (maximumf (broadcastInDim S1 ![] bcast_S_S1 (constant S_ .f32 0xFF800000#32))
            (Host.reduce FloatOps.maximumf s (constant S_ .f32 0xFF800000#32) reducesTo_S64x1_S1_d0 h_S_)))))

/-- The softmax down the 64 rows. -/
def softmaxRows (s : (⟨S64x1, .f32⟩ : BufTy).Contents (Elt F)) : (⟨S64x1, .f32⟩ : BufTy).Contents (Elt F) :=
  Host.divf (expShifted s)
    (broadcastInDim S64x1 ![0, 1] bcast_S1x1_S64x1_0_1
      (broadcastInDim S1x1 ![1] bcast_S1_S1x1_1
        (Host.reduceAdd (expShifted s) (constant S_ .f32 0x00000000#32) reducesTo_S64x1_S1_d0 h_S_)))

/-- The attention weights, one per client row. -/
def weights (x : (⟨S64x512, .f32⟩ : BufTy).Contents (Elt F)) (a2 : (⟨S512x128, .f32⟩ : BufTy).Contents (Elt F))
    (a3 : (⟨S128, .f32⟩ : BufTy).Contents (Elt F)) (a4 : (⟨S128x1, .f32⟩ : BufTy).Contents (Elt F))
    (a5 : (⟨S1, .f32⟩ : BufTy).Contents (Elt F)) : (⟨S64x1, .f32⟩ : BufTy).Contents (Elt F) :=
  softmaxRows (scores x a2 a3 a4 a5)

end Cert.KernelIdeal.Stages

end
-- ==== Proof.KHost.lean ====
/-
  What the fusion kernel's region finds in the weights array: the host operations before the launch compose to
  the attention weights of the attention input, both pure functions of the argument arrays.
-/
import proofs.«104560_j59253368815734_2_alg».proof.Proof.KStages
import proofs.«104560_j59253368815734_2_alg».proof.Proof.Gen.KernelIdeal.Frame
import Idealize.ShloMosaic.Lib.StableHlo.Run

noncomputable section

namespace Cert.KernelIdeal.HostValue

open Idealize.ShloMosaic Idealize.ShloMosaic.TcCoe Idealize.SL.Sem Idealize.ShloMosaic.StableHlo
open Cert.KernelIdeal Cert.KernelIdeal.Gen

variable {F : FTy → Type} [FloatOps F]

variable (m : (ℓ : Loc nD τ sig) → Buf (Elt F) ℓ)

attribute [local irreducible] Host.reduce Host.reduceAdd concatenate extractStridedSlice in
set_option maxHeartbeats 1000000 in
/-- When the region is entered the weights array holds the softmax weights of the attention input built from the
    launch contents of the client tokens and the global token, with the launch contents of the two layers' parameters. -/
theorem V_weights (c : Dev nD) :
    (V m c main_v25 : (⟨S64x1, .f32⟩ : BufTy).Contents (Elt F))
      = Stages.weights (Stages.attnIn (m ((c : Thread nD τ).loc main_arg0)) (m ((c : Thread nD τ).loc main_arg1)))
          (m ((c : Thread nD τ).loc main_arg2)) (m ((c : Thread nD τ).loc main_arg3))
          (m ((c : Thread nD τ).loc main_arg4)) (m ((c : Thread nD τ).loc main_arg5)) := by
  dsimp only [Gen.V]
  simp only [Gen.hostOps0, Gen.hostOps0_1, Gen.hostOps0_2, List.flatten_cons, List.flatten_nil, List.append_nil, List.cons_append,
    List.nil_append]
  after_results_simp
  rfl

end Cert.KernelIdeal.HostValue

end
-- ==== Proof.KAttn.lean ====
import proofs.«104560_j59253368815734_2_alg».proof.Proof.KStages
import proofs.«104560_j59253368815734_2_alg».proof.Proof.Gen.KernelIdeal
import Idealize.ShloMosaic.Lib.ValueIdx
import Idealize.ShloMosaic.Lib.Pipeline.Value

/-!
# The attention input, read at an index

The attention input is the first 256 columns of the client tokens set beside the first 256 columns of the global
token repeated on every row. Read at row `p` and column `q` it is therefore the client tokens at `(p, q)` when
`q < 256`, and the global token at `(0, q - 256)` otherwise.
-/

noncomputable section

namespace Cert.KernelIdeal.AttnRead

open Idealize.ShloMosaic Idealize.ShloMosaic.ValueIdx Cert.KernelIdeal

/-- The attention input at row `p`, column `q`: a column in the left half reads the client tokens there (a slice
    from offset zero reads the array at the same coordinates); a column in the right half reads the global token's
    one row at the column less 256 (the concatenation shifts the column by the left half's width, the broadcast
    along the rows reads row zero, and the slice from offset zero reads the array at the same coordinates). -/
theorem attnIn_apply (a0 : FVec Ideal S64x1000000 .f32) (a1 : FVec Ideal S1x1000000 .f32) (p : Fin 64) (q : Fin 512) :
    Cert.KernelIdeal.Stages.attnIn (F := Ideal) a0 a1 (ix2 p q)
      = if h : q.val < 256 then a0 (ix2 p (⟨q.val, by omega⟩ : Fin 1000000))
        else a1 (ix2 (0 : Fin 1) (⟨q.val - 256, by omega⟩ : Fin 1000000)) := by
  unfold Cert.KernelIdeal.Stages.attnIn
  by_cases h : q.val < 256
  · rw [dif_pos h]
    refine (concatenate_pair_apply_left (t := S64x512) (s₁ := S64x256) (s₂ := S64x256) 1 _ _ _ (ix2 p q) rfl
      (ix2 p (⟨q.val, h⟩ : Fin 256)) (fun b => ?_)).trans ?_
    · match b with
      | ⟨0, _⟩ => rfl
      | ⟨1, _⟩ => rfl
    · refine extractStridedSlice_apply (s := S64x1000000) (t := S64x256) ![0, 0] a0 _ (ix2 p (⟨q.val, h⟩ : Fin 256))
        (ix2 p (⟨q.val, by omega⟩ : Fin 1000000)) (fun a => ?_)
      match a with
      | ⟨0, _⟩ => exact (Nat.zero_add _).symm
      | ⟨1, _⟩ => exact (Nat.zero_add _).symm
  · rw [dif_neg h]
    have hq : q.val < 512 := q.isLt
    refine (concatenate_pair_apply_right (t := S64x512) (s₁ := S64x256) (s₂ := S64x256) 1 _ _ _ (ix2 p q) rfl rfl
      (ix2 p (⟨q.val - 256, by omega⟩ : Fin 256)) (fun b hb => ?_) ?_).trans ?_
    · match b with
      | ⟨0, _⟩ => rfl
      | ⟨1, _⟩ => exact absurd rfl hb
    · show (q.val - 256) + 256 = q.val
      omega
    · refine (broadcastInDim_apply (s := S1x256) (t := S64x256) ![0, 1] _ _ (ix2 p (⟨q.val - 256, by omega⟩ : Fin 256))
        (ix2 (0 : Fin 1) (⟨q.val - 256, by omega⟩ : Fin 256)) (fun a => ?_)).trans ?_
      · match a with
        | ⟨0, _⟩ => rfl
        | ⟨1, _⟩ => rfl
      · refine extractStridedSlice_apply (s := S1x1000000) (t := S1x256) ![0, 0] a1 _
          (ix2 (0 : Fin 1) (⟨q.val - 256, by omega⟩ : Fin 256))
          (ix2 (0 : Fin 1) (⟨q.val - 256, by omega⟩ : Fin 1000000)) (fun a => ?_)
        match a with
        | ⟨0, _⟩ => exact (Nat.zero_add _).symm
        | ⟨1, _⟩ => exact (Nat.zero_add _).symm

end Cert.KernelIdeal.AttnRead

end
-- ==== Proof.RefStages.lean ====
/-
  The reference program's value, stage by stage, as pure functions of its argument arrays (at any float
  instance): the column indices the two gathers read (the first 256 naturals reduced modulo the row
  length, with jnp's sign corrections), the 64×512 attention input (the gathered columns of the client
  tokens beside the gathered columns of the global token spread over the 64 rows), the attention weights
  (two affine layers with a clamp at zero between them, then a softmax down the 64 rows), and the blend
  (half the global token plus half the weighted sum of the client rows).
-/
import proofs.«104560_j59253368815734_2_alg».proof.ReferenceIdeal

noncomputable section

namespace Cert.ReferenceIdeal.Stages

open Idealize.ShloMosaic Cert.ReferenceIdeal Cert.ReferenceIdeal.Facts₀

variable {F : FTy → Type} [FloatOps F] [Facts]

/-- The modulus as jnp's remainder uses it: 1 if it were 0, else itself (here one million). -/
def modulus : (⟨S_, .i32⟩ : BufTy).Contents (Elt F) :=
  select (cmpi .eq (constantI S_ 32 1000000#32 : (⟨S_, .i32⟩ : BufTy).Contents (Elt F)) (constantI S_ 32 0#32))
    (constantI S_ 32 1#32) (constantI S_ 32 1000000#32)

/-- The truncated remainder of 0, 1, …, 255 by the modulus. -/
def truncRem : (⟨S256, .i32⟩ : BufTy).Contents (Elt F) :=
  Host.remsi (iotaInDim S256 32 0) (broadcastInDim S256 ![] bcast_S_S256 (modulus (F := F)))

/-- jnp's remainder: the truncated one, moved by the modulus where it is nonzero and its sign differs from the modulus's. -/
def floorRem : (⟨S256, .i32⟩ : BufTy).Contents (Elt F) :=
  select
    (andi
      (cmpi .ne
        (cmpi .slt (truncRem (F := F)) (broadcastInDim S256 ![] bcast_S_S256 (constantI S_ 32 0#32)))
        (broadcastInDim S256 ![] bcast_S_S256 (cmpi .slt (modulus (F := F)) (constantI S_ 32 0#32))))
      (cmpi .ne (truncRem (F := F)) (broadcastInDim S256 ![] bcast_S_S256 (constantI S_ 32 0#32))))
    (addi (truncRem (F := F)) (broadcastInDim S256 ![] bcast_S_S256 (modulus (F := F))))
    (truncRem (F := F))

/-- The gathers' start indices, one per sampled column: the remainder, wrapped once more if negative, as a 256×1 table. -/
def gatherIdx : (⟨S256x1, .i32⟩ : BufTy).Contents (Elt F) :=
  broadcastInDim S256x1 ![0] bcast_S256_S256x1_0
    (select (cmpi .slt (floorRem (F := F)) (broadcastInDim S256 ![] bcast_S_S256 (constantI S_ 32 0#32)))
      (addi (floorRem (F := F)) (broadcastInDim S256 ![] bcast_S_S256 (constantI S_ 32 1000000#32)))
      (floorRem (F := F)))

/-- The attention input: the sampled columns of the client tokens, then those of the global token on every row. -/
def attnIn (a0 : (⟨S64x1000000, .f32⟩ : BufTy).Contents (Elt F)) (a1 : (⟨S1x1000000, .f32⟩ : BufTy).Contents (Elt F)) :
    (⟨S64x512, .f32⟩ : BufTy).Contents (Elt F) :=
  concatenate S64x512 1
    [⟨S64x256, Host.gather gather_S64x1000000_S256x1_S64x256_0_1_n_n_1_1_641 a0 (gatherIdx (F := F))⟩,
     ⟨S64x256, Host.gather gather_S64x1000000_S256x1_S64x256_0_1_n_n_1_1_641
        (broadcastInDim S64x1000000 ![0, 1] bcast_S1x1000000_S64x1000000_0_1 a1) (gatherIdx (F := F))⟩]
    concatenates_S64x256_S64x256_S64x512_d1

/-- The scores before the softmax: x·W1 + b1 clamped at zero, times W2, plus b2, divided by the temperature 1. -/
def scores (x : (⟨S64x512, .f32⟩ : BufTy).Contents (Elt F)) (a2 : (⟨S512x128, .f32⟩ : BufTy).Contents (Elt F))
    (a3 : (⟨S128, .f32⟩ : BufTy).Contents (Elt F)) (a4 : (⟨S128x1, .f32⟩ : BufTy).Contents (Elt F))
    (a5 : (⟨S1, .f32⟩ : BufTy).Contents (Elt F)) : (⟨S64x1, .f32⟩ : BufTy).Contents (Elt F) :=
  Host.divf
    (addf
      (Host.dotGeneral dot_S64x128_S128x1_S64x1_1_0_0_1_n_n none
        (maximumf
          (addf (Host.dotGeneral dot_S64x512_S512x128_S64x128_1_0_0_1_n_n none x a2)
            (broadcastInDim S64x128 ![0, 1] bcast_S1x128_S64x128_0_1 (broadcastInDim S1x128 ![1] bcast_S128_S1x128_1 a3)))
          (broadcastInDim S64x128 ![] bcast_S_S64x128 (constant S_ .f32 0x00000000#32)))
        a4)
      (broadcastInDim S64x1 ![0, 1] bcast_S1x1_S64x1_0_1 (broadcastInDim S1x1 ![1] bcast_S1_S1x1_1 a5)))
    (broadcastInDim S64x1 ![] bcast_S_S64x1 (constant S_ .f32 0x3F800000#32))

/-- exp of the scores less their maximum down the rows. -/
def expShifted (s : (⟨S64x1, .f32⟩ : BufTy).Contents (Elt F)) : (⟨S64x1, .f32⟩ : BufTy).Contents (Elt F) :=
  Host.exp
    (subf s
      (broadcastInDim S64x1 ![0, 1] bcast_S1x1_S64x1_0_1
        (broadcastInDim S1x1 ![1] bcast_S1_S1x1_1
          (maximumf (broadcastInDim S1 ![] bcast_S_S1 (constant S_ .f32 0xFF800000#32))
            (Host.reduce FloatOps.maximumf s (constant S_ .f32 0xFF800000#32) reducesTo_S64x1_S1_d0 h_S_)))))

/-- The softmax down the 64 rows. -/
def softmaxRows (s : (⟨S64x1, .f32⟩ : BufTy).Contents (Elt F)) : (⟨S64x1, .f32⟩ : BufTy).Contents (Elt F) :=
  Host.divf (expShifted s)
    (broadcastInDim S64x1 ![0, 1] bcast_S1x1_S64x1_0_1
      (broadcastInDim S1x1 ![1] bcast_S1_S1x1_1
        (Host.reduceAdd (expShifted s) (constant S_ .f32 0x00000000#32) reducesTo_S64x1_S1_d0 h_S_)))

/-- The attention weights, one per client row. -/
def weights (x : (⟨S64x512, .f32⟩ : BufTy).Contents (Elt F)) (a2 : (⟨S512x128, .f32⟩ : BufTy).Contents (Elt F))
    (a3 : (⟨S128, .f32⟩ : BufTy).Contents (Elt F)) (a4 : (⟨S128x1, .f32⟩ : BufTy).Contents (Elt F))
    (a5 : (⟨S1, .f32⟩ : BufTy).Contents (Elt F)) : (⟨S64x1, .f32⟩ : BufTy).Contents (Elt F) :=
  softmaxRows (scores x a2 a3 a4 a5)

/-- The fused token: half the global token plus half the weighted sum of the client rows. -/
def blend (a0 : (⟨S64x1000000, .f32⟩ : BufTy).Contents (Elt F)) (a1 : (⟨S1x1000000, .f32⟩ : BufTy).Contents (Elt F))
    (w : (⟨S64x1, .f32⟩ : BufTy).Contents (Elt F)) : (⟨S1x1000000, .f32⟩ : BufTy).Contents (Elt F) :=
  addf
    (mulf (broadcastInDim S1x1000000 ![] bcast_S_S1x1000000 (constant S_ .f32 0x3F000000#32)) a1)
    (mulf (broadcastInDim S1x1000000 ![] bcast_S_S1x1000000 (constant S_ .f32 0x3F000000#32))
      (broadcastInDim S1x1000000 ![1] bcast_S1000000_S1x1000000_1
        (Host.reduceAdd (mulf a0 (broadcastInDim S64x1000000 ![0, 1] bcast_S64x1_S64x1000000_0_1 w))
          (constant S_ .f32 0x00000000#32) reducesTo_S64x1000000_S1000000_d0 h_S_)))

/-- The reference's result as one function of its six argument arrays. -/
def out (a0 : (⟨S64x1000000, .f32⟩ : BufTy).Contents (Elt F)) (a1 : (⟨S1x1000000, .f32⟩ : BufTy).Contents (Elt F))
    (a2 : (⟨S512x128, .f32⟩ : BufTy).Contents (Elt F)) (a3 : (⟨S128, .f32⟩ : BufTy).Contents (Elt F))
    (a4 : (⟨S128x1, .f32⟩ : BufTy).Contents (Elt F)) (a5 : (⟨S1, .f32⟩ : BufTy).Contents (Elt F)) :
    (⟨S1x1000000, .f32⟩ : BufTy).Contents (Elt F) :=
  blend a0 a1 (weights (attnIn a0 a1) a2 a3 a4 a5)

end Cert.ReferenceIdeal.Stages

end
-- ==== Proof.RefReadIdx.lean ====
/-
  The start indices of the reference's two gathers, read entry by entry. Each entry of the 256×1 table is a
  closed 32-bit computation on the word of its row number r: the remainder of r by one million, truncated,
  then corrected in sign, then wrapped once more if negative. For 0 ≤ r < 256 every stage leaves r, so the
  table's entry at row r is the word of r.
-/
import proofs.«104560_j59253368815734_2_alg».proof.Proof.RefStages
import proofs.«104560_j59253368815734_2_alg».proof.Proof.Gen.ReferenceIdeal
import Idealize.ShloMosaic.Lib.ValueIdx
import Idealize.ShloMosaic.Lib.Pipeline.Value
import Idealize.ShloMosaic.Lib.Decide

noncomputable section

namespace Cert.ReferenceIdeal.RefRead

open Idealize.ShloMosaic Idealize.ShloMosaic.ValueIdx Cert.ReferenceIdeal Cert.ReferenceIdeal.Gen

/-- One entry of the start-index table as a function of the word x of its row number: with the modulus
    m = 1000000 (1 if it were 0), the truncated remainder t = x rem m, the floored remainder f = t + m where t ≠ 0
    and the signs of t and m differ (else t), and the entry f + 1000000 where f < 0 (else f). -/
def idxWord (x : BitVec 32) : BitVec 32 :=
  let m : BitVec 32 := Scalar.select (IntOp.cmpi .eq (1000000#32 : BitVec 32) 0#32) 1#32 1000000#32
  let t : BitVec 32 := IntOp.remsi .host x m
  let f : BitVec 32 :=
    Scalar.select
      (IntOp.andi (IntOp.cmpi .ne (IntOp.cmpi .slt t 0#32) (IntOp.cmpi .slt m 0#32)) (IntOp.cmpi .ne t 0#32))
      (IntOp.addi t m) t
  Scalar.select (IntOp.cmpi .slt f 0#32) (IntOp.addi f 1000000#32) f

/-- For a row number below 256 the entry is the row number's own word: r rem 1000000 = r, which is not
    negative, so neither the sign correction nor the wrap moves it. Checked at each of the 256 words. -/
theorem idxWord_ofNat : ∀ r : Fin 256, idxWord (BitVec.ofNat 32 r.val) = BitVec.ofNat 32 r.val := by
  decide +kernel

/-- The table's entry at row r is that closed computation on the word of r: the broadcast to 256×1 reads
    row r of the 256-vector, the iota reads r, and every other stage acts entry by entry. -/
theorem gatherIdx_eq_idxWord (r : Fin 256) :
    Stages.gatherIdx (F := Ideal) (ix2 r (0 : Fin 1)) = idxWord (BitVec.ofNat 32 r.val) := by
  unfold Stages.gatherIdx
  refine (broadcastInDim_apply _ _ _ (ix2 r (0 : Fin 1)) (ix1 r) (fun a => by
    match a with
    | ⟨0, _⟩ => rfl)).trans ?_
  rfl

/-- Every start index is its own position: 0 ≤ r < 256 < 1000000, so the remainder, its sign correction
    and the wrap all leave r. -/
theorem gatherIdx_apply (r : Fin 256) :
    Stages.gatherIdx (F := Ideal) (ix2 r (0 : Fin 1)) = BitVec.ofNat 32 r.val :=
  (gatherIdx_eq_idxWord r).trans (idxWord_ofNat r)

end Cert.ReferenceIdeal.RefRead

end
-- ==== Proof.RefReadGather.lean ====
/-
  The reference's column gather read at an index. The gather takes, for each of the 256 rows r of its
  start-index table, the whole column of the 64×1000000 operand that the table's entry names (read as a
  signed integer and clamped into [0, 999999]) and lays the columns side by side: entry (p, r) of the
  64×256 result is the operand at (p, clamp (entry r)). With the table's entry at row r the word of r
  itself, that is the operand at (p, r).
-/
import proofs.«104560_j59253368815734_2_alg».proof.Proof.RefStages
import proofs.«104560_j59253368815734_2_alg».proof.Proof.Gen.ReferenceIdeal
import Idealize.ShloMosaic.Lib.ValueIdx
import Idealize.ShloMosaic.Lib.Decide

noncomputable section

namespace Cert.ReferenceIdeal.RefRead

open Idealize.ShloMosaic Idealize.ShloMosaic.ValueIdx Cert.ReferenceIdeal Cert.ReferenceIdeal.Gen

/-- The word of a number below 256, read as a signed integer, is that number, and it lies below the last
    column 999999: the clamp leaves it. Checked at each of the 256 words. -/
theorem clamp_ofNat : ∀ r : Fin 256, min (BitVec.ofNat 32 r.val).toInt.toNat (1000000 - 1) = r.val := by
  decide +kernel

/-- The column gather at (p, r), for a start-index table whose entry at row r is the word of r: the operand's
    row p at column r. On the operand's row axis the slice is whole (start 0, offset p); on its column axis
    the slice has one column, at the clamped start index. -/
theorem gather_cols_apply {α : Type} (x : S64x1000000.Idx → α) (idx : IVec S256x1 32) (p : Fin 64) (r : Fin 256)
    (hidx : idx (ix2 r (0 : Fin 1)) = BitVec.ofNat 32 r.val) :
    Host.gather gather_S64x1000000_S256x1_S64x256_0_1_n_n_1_1_641 x idx (ix2 p r)
      = x (ix2 p (⟨r.val, by omega⟩ : Fin 1000000)) := by
  unfold Host.gather
  refine congrArg x (funext fun a => Fin.ext ?_)
  match a with
  | ⟨0, _⟩ =>
    show gather_S64x1000000_S256x1_S64x256_0_1_n_n_1_1_641.start (ix2 p r) idx 0
        + gather_S64x1000000_S256x1_S64x256_0_1_n_n_1_1_641.batchCoord (ix2 p r) 0
        + gather_S64x1000000_S256x1_S64x256_0_1_n_n_1_1_641.offCoord (ix2 p r) 0 = p.val
    rw [GatherDims.batchCoord_eq_zero _ _ _ List.not_mem_nil]
    unfold GatherDims.start
    rw [dif_neg (by decide)]
    unfold GatherDims.offCoord
    rw [dif_pos (by decide)]
    simp only [Nat.add_zero, Nat.zero_add]
    rfl
  | ⟨1, _⟩ =>
    show gather_S64x1000000_S256x1_S64x256_0_1_n_n_1_1_641.start (ix2 p r) idx 1
        + gather_S64x1000000_S256x1_S64x256_0_1_n_n_1_1_641.batchCoord (ix2 p r) 1
        + gather_S64x1000000_S256x1_S64x256_0_1_n_n_1_1_641.offCoord (ix2 p r) 1 = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S64x1000000_S256x1_S64x256_0_1_n_n_1_1_641.startIndexMap from
      List.mem_singleton.mpr rfl)]
    have hsi : gather_S64x1000000_S256x1_S64x256_0_1_n_n_1_1_641.siIdx (ix2 p r)
        ⟨List.idxOf (1 : Fin 2) gather_S64x1000000_S256x1_S64x256_0_1_n_n_1_1_641.startIndexMap,
          List.idxOf_lt_length_iff.2 (List.mem_singleton.mpr rfl)⟩ = ix2 r (0 : Fin 1) := by
      funext b; refine Fin.ext ?_
      match b with
      | ⟨0, _⟩ => rfl
      | ⟨1, _⟩ => rfl
    rw [hsi, hidx]
    exact clamp_ofNat r

end Cert.ReferenceIdeal.RefRead

end
-- ==== Proof.RefReadAttn.lean ====
/-
  The reference's attention input read at an index. The 64×512 array is two 64×256 halves side by side: in the
  first half, column q of row p is the client token at (p, q); in the second half, column q of every row is
  the global token at column q − 256. Both halves are column gathers at the same table of start indices,
  whose entry at row r is r itself.
-/
import proofs.«104560_j59253368815734_2_alg».proof.Proof.RefStages
import proofs.«104560_j59253368815734_2_alg».proof.Proof.Gen.ReferenceIdeal
import proofs.«104560_j59253368815734_2_alg».proof.Proof.RefReadIdx
import proofs.«104560_j59253368815734_2_alg».proof.Proof.RefReadGather
import Idealize.ShloMosaic.Lib.ValueIdx
import Idealize.ShloMosaic.Lib.Pipeline.Value

noncomputable section

namespace Cert.ReferenceIdeal.RefRead

open Idealize.ShloMosaic Idealize.ShloMosaic.ValueIdx Cert.ReferenceIdeal Cert.ReferenceIdeal.Gen

/-- The one-row global token spread over the 64 rows reads, at (p, c), the token's entry at column c. -/
theorem bcast_rows_apply {α : Type} (h : S1x1000000.BroadcastsInDim S64x1000000 (![0, 1] : Fin 2 → Fin S64x1000000.rank))
    (v : S1x1000000.Idx → α) (p : Fin 64) (c : Fin 1000000) :
    broadcastInDim S64x1000000 ![0, 1] h v (ix2 p c) = v (ix2 (0 : Fin 1) c) :=
  broadcastInDim_apply _ h v (ix2 p c) (ix2 (0 : Fin 1) c) (fun a => by
    match a with
    | ⟨0, _⟩ => rfl
    | ⟨1, _⟩ => rfl)

/-- The attention input at (p, q): the client token at (p, q) for q below 256, the global token at column
    q − 256 from there on. -/
theorem attnIn_apply (a0 : FVec Ideal S64x1000000 .f32) (a1 : FVec Ideal S1x1000000 .f32) (p : Fin 64) (q : Fin 512) :
    Stages.attnIn (F := Ideal) a0 a1 (ix2 p q)
      = if h : q.val < 256 then a0 (ix2 p (⟨q.val, by omega⟩ : Fin 1000000))
        else a1 (ix2 (0 : Fin 1) (⟨q.val - 256, by omega⟩ : Fin 1000000)) := by
  unfold Stages.attnIn
  by_cases h : q.val < 256
  · rw [dif_pos h]
    refine (concatenate_pair_apply_left (s₁ := S64x256) (s₂ := S64x256) _ _ _ _ (ix2 p q) rfl (ix2 p (⟨q.val, h⟩ : Fin 256)) (fun b => by
      match b with
      | ⟨0, _⟩ => rfl
      | ⟨1, _⟩ => rfl)).trans ?_
    exact gather_cols_apply a0 _ p ⟨q.val, h⟩ (gatherIdx_apply ⟨q.val, h⟩)
  · rw [dif_neg h]
    have hq : q.val - 256 < 256 := by omega
    refine (concatenate_pair_apply_right (s₁ := S64x256) (s₂ := S64x256) _ _ _ _ (ix2 p q) rfl rfl (ix2 p (⟨q.val - 256, hq⟩ : Fin 256))
      (fun b hb => by
        match b with
        | ⟨0, _⟩ => rfl
        | ⟨1, _⟩ => exact absurd rfl hb)
      (by show (q.val - 256) + 256 = q.val; omega)).trans ?_
    refine (gather_cols_apply _ _ p ⟨q.val - 256, hq⟩ (gatherIdx_apply ⟨q.val - 256, hq⟩)).trans ?_
    exact bcast_rows_apply _ a1 p ⟨q.val - 256, by omega⟩

end Cert.ReferenceIdeal.RefRead

end
-- ==== Proof.RefReadBlend.lean ====
/-
  The reference's blend read at an index. The fused token at column d is half the global token there plus
  half the sum, over the 64 client rows k, of the client token at (k, d) times row k's attention weight.
  The host's sum over the row axis starts from the word of zero, which is the extended real 0, and
  0 + x = x on the extended reals, so no finiteness is needed.
-/
import proofs.«104560_j59253368815734_2_alg».proof.Proof.RefStages
import proofs.«104560_j59253368815734_2_alg».proof.Proof.Gen.ReferenceIdeal
import Idealize.ShloMosaic.Lib.ValueIdx
import Idealize.ShloMosaic.Lib.IdealHost
import Idealize.ShloMosaic.Lib.Pipeline.Value
import Idealize.ShloMosaic.PureOps.Ideal.Laws
import Idealize.ShloMosaic.PureOps.Reduce

noncomputable section

open scoped BigOperators

namespace Cert.ReferenceIdeal.RefRead

open Idealize.ShloMosaic Idealize.ShloMosaic.ValueIdx Cert.ReferenceIdeal Cert.ReferenceIdeal.Gen

/-- A vector of 1000000 entries laid out as one row reads, at (0, d), its entry d. -/
theorem bcast_row_apply {α : Type} (h : S1000000.BroadcastsInDim S1x1000000 (![1] : Fin 1 → Fin S1x1000000.rank))
    (R : S1000000.Idx → α) (d : Fin 1000000) :
    broadcastInDim S1x1000000 ![1] h R (ix2 (0 : Fin 1) d) = R (ix1 d) :=
  broadcastInDim_apply _ h R (ix2 (0 : Fin 1) d) (ix1 d) (fun a => by
    match a with
    | ⟨0, _⟩ => rfl)

/-- A 64×1 column spread along the 1000000 columns reads, at (k, d), the column's entry at row k. -/
theorem bcast_col_apply {α : Type} (h : S64x1.BroadcastsInDim S64x1000000 (![0, 1] : Fin 2 → Fin S64x1000000.rank))
    (w : S64x1.Idx → α) (k : Fin 64) (d : Fin 1000000) :
    broadcastInDim S64x1000000 ![0, 1] h w (ix2 k d) = w (ix2 k (0 : Fin 1)) :=
  broadcastInDim_apply _ h w (ix2 k d) (ix2 k (0 : Fin 1)) (fun a => by
    match a with
    | ⟨0, _⟩ => rfl
    | ⟨1, _⟩ => rfl)

/-- The host's sum down the 64 rows of the client tokens weighted row by row, at column d: the initial value
    0 plus the finite sum over the rows, which is the finite sum. -/
theorem weightedSum_apply (a0 : FVec Ideal S64x1000000 .f32) (w : FVec Ideal S64x1 .f32)
    (hb : S64x1.BroadcastsInDim S64x1000000 (![0, 1] : Fin 2 → Fin S64x1000000.rank))
    (hr' : S64x1000000.ReducesTo [0] S1000000) (hu : 0 < S_.numel) (d : Fin 1000000) :
    Host.reduceAdd (F := Ideal) (mulf a0 (broadcastInDim S64x1000000 ![0, 1] hb w))
        (constant (F := Ideal) S_ .f32 0x00000000#32) hr' hu (ix1 d)
      = ∑ k : Fin 64, a0 (ix2 k d) * w (ix2 k (0 : Fin 1)) := by
  have hr : S64x1000000.Reduces [0] S1000000 := by decide
  rw [hostReduceAdd_apply, Ideal.hostReduceAdd_single hr' hr, constant_apply, Ideal.ofBits_zero_f32, zero_add]
  refine Finset.sum_congr rfl fun (k : Fin 64) _ => ?_
  have hl : hr.lift (ix1 d) k = ix2 k d := by
    funext a; refine Fin.ext ?_
    match a with
    | ⟨0, _⟩ => rfl
    | ⟨1, _⟩ => rfl
  rw [hl, mulf_apply, bcast_col_apply]

/-- The blend at column d: half the global token plus half the weighted sum of the client rows. The word
    0x3F000000 is kept as it stands; it is the same word wherever the value is compared. -/
theorem blend_apply (a0 : FVec Ideal S64x1000000 .f32) (a1 : FVec Ideal S1x1000000 .f32) (w : FVec Ideal S64x1 .f32)
    (d : Fin 1000000) :
    Stages.blend (F := Ideal) a0 a1 w (ix2 (0 : Fin 1) d)
      = Ideal.ofBits .f32 0x3F000000#32 * a1 (ix2 (0 : Fin 1) d)
        + Ideal.ofBits .f32 0x3F000000#32 * ∑ k : Fin 64, a0 (ix2 k d) * w (ix2 k (0 : Fin 1)) := by
  unfold Stages.blend
  rw [addf_apply, mulf_apply, mulf_apply, broadcastInDim_scalar_apply, constant_apply, bcast_row_apply,
    weightedSum_apply]

end Cert.ReferenceIdeal.RefRead

end
-- ==== Proof.RefRead.lean ====
/-
  The reference's value read at an index, at the ideal values: the gathers' start indices (entry r is r), the
  attention input (client token columns, then global token columns), and the blend (half the global token plus
  half the weighted sum of the client rows).
-/
import proofs.«104560_j59253368815734_2_alg».proof.Proof.RefReadIdx
import proofs.«104560_j59253368815734_2_alg».proof.Proof.RefReadGather
import proofs.«104560_j59253368815734_2_alg».proof.Proof.RefReadAttn
import proofs.«104560_j59253368815734_2_alg».proof.Proof.RefReadBlend
-- ==== Proof.Bridge.lean ====
/-
  The two programs compute one function. Both build the same 64×512 attention input (the first 256 columns of the
  client tokens beside the first 256 columns of the global token on every row: the reference reads them through
  gathers at the indices 0, 1, …, 255 reduced modulo the row length, which are those indices themselves), push it
  through the same weight chain, and blend: half the global token plus half the sum down the 64 rows of the client
  entry times the row's weight. The reference's host sum starts from zero, and 0 + x = x on the extended reals; no
  entry needs to be finite.
-/
import proofs.«104560_j59253368815734_2_alg».proof.Proof.Spec
import proofs.«104560_j59253368815734_2_alg».proof.Proof.KStages
import proofs.«104560_j59253368815734_2_alg».proof.Proof.KAttn
import proofs.«104560_j59253368815734_2_alg».proof.Proof.RefStages
import proofs.«104560_j59253368815734_2_alg».proof.Proof.RefRead
import proofs.«104560_j59253368815734_2_alg».proof.Proof.Gen.KernelIdeal
import proofs.«104560_j59253368815734_2_alg».proof.Proof.Gen.ReferenceIdeal

noncomputable section

namespace Cert.Bridge

open Idealize.ShloMosaic Idealize.ShloMosaic.ValueIdx Cert.Fusion

/-- The two attention inputs are one array. -/
theorem attnIn_eq (a0 : FVec Ideal ⟨2, ![64, 1000000]⟩ .f32) (a1 : FVec Ideal ⟨2, ![1, 1000000]⟩ .f32) :
    Cert.ReferenceIdeal.Stages.attnIn (F := Ideal) a0 a1 = Cert.KernelIdeal.Stages.attnIn (F := Ideal) a0 a1 := by
  funext i
  rw [eq_ix2 i]
  exact (Cert.ReferenceIdeal.RefRead.attnIn_apply a0 a1 (i 0) (i 1)).trans
    (Cert.KernelIdeal.AttnRead.attnIn_apply a0 a1 (i 0) (i 1)).symm

/-- The two weight chains are one function: the same operations with the same constants. -/
theorem weights_eq (x : FVec Ideal ⟨2, ![64, 512]⟩ .f32) (a2 : FVec Ideal ⟨2, ![512, 128]⟩ .f32) (a3 : FVec Ideal ⟨1, ![128]⟩ .f32)
    (a4 : FVec Ideal ⟨2, ![128, 1]⟩ .f32) (a5 : FVec Ideal ⟨1, ![1]⟩ .f32) :
    Cert.ReferenceIdeal.Stages.weights (F := Ideal) x a2 a3 a4 a5 = Cert.KernelIdeal.Stages.weights (F := Ideal) x a2 a3 a4 a5 :=
  rfl

/-- The reference's result is the fused token of the arguments and the kernel-side weights. -/
theorem out_eq (a0 : FVec Ideal ⟨2, ![64, 1000000]⟩ .f32) (a1 : FVec Ideal ⟨2, ![1, 1000000]⟩ .f32)
    (a2 : FVec Ideal ⟨2, ![512, 128]⟩ .f32) (a3 : FVec Ideal ⟨1, ![128]⟩ .f32) (a4 : FVec Ideal ⟨2, ![128, 1]⟩ .f32)
    (a5 : FVec Ideal ⟨1, ![1]⟩ .f32) :
    Cert.ReferenceIdeal.Stages.out (F := Ideal) a0 a1 a2 a3 a4 a5
      = fused (n := 1000000) a0 a1 (Cert.KernelIdeal.Stages.weights (F := Ideal) (Cert.KernelIdeal.Stages.attnIn (F := Ideal) a0 a1) a2 a3 a4 a5) := by
  unfold Cert.ReferenceIdeal.Stages.out
  rw [weights_eq, attnIn_eq]
  funext i
  have h0 : (i 0).val = 0 := by have h : (i 0).val < 1 := (i 0).isLt; omega
  rw [eq_ix2 i, show (i 0) = (0 : Fin 1) from Fin.ext h0]
  exact Cert.ReferenceIdeal.RefRead.blend_apply a0 a1 _ (i 1)

end Cert.Bridge

end
-- ==== Proof.RefRunOps.lean ====
/-
  The reference program's @main as a list of tensor operations. @main is a straight line: the two outlined
  remainders (each with the select it calls in turn) and the outlined clamp at zero are substituted at their
  call sites, which leaves 106 operations, each writing one buffer of its own. The list is cut into five
  consecutive stretches, each ending where a stage of the computation is complete.
-/
import proofs.«104560_j59253368815734_2_alg».proof.ReferenceIdeal
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F] [Facts]

/-- The first 33 operations: the global token spread over the 64 rows, the column numbers 0 … 255 and the modulus, the first remainder (the modulus guarded against zero by the nested select, the truncated remainder, the sign tests, the corrected remainder), the wrap of negative indices, and the gather of the client tokens' sampled columns. -/
abbrev opsA : List (HloOp τ sig (Elt F)) :=
  [
    StableHlo.unary main_arg1 main_v0 (broadcastInDim S64x1000000 ![0, 1] bcast_S1x1000000_S64x1000000_0_1 : (⟨S1x1000000, .f32⟩ : BufTy).Contents (Elt F) → (⟨S64x1000000, .f32⟩ : BufTy).Contents (Elt F)),
    StableHlo.nullary main_v1 (iotaInDim S256 32 0),
    StableHlo.nullary main_c (constantI S_ 32 1000000#32),
    StableHlo.TRef.unary (.of main_c) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S256 ![] bcast_S_S256),
    StableHlo.TRef.binary (.of main_v1) main_call0.v3 main_call0.v4 Host.remsi,
    StableHlo.TRef.nullary main_call0.c_1 (constantI S_ 32 0#32),
    StableHlo.TRef.unary main_call0.c_1 main_call0.v5 (broadcastInDim S256 ![] bcast_S_S256),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S256 ![] bcast_S_S256),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S256 ![] bcast_S_S256),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S256 ![] bcast_S_S256),
    StableHlo.TRef.binary main_call0.v4 main_call0.v13 main_call0.v14 addi,
    StableHlo.TRef.ternary main_call0.v12 main_call0.v14 main_call0.v4 main_call0.v15 select,
    StableHlo.nullary main_c_0 (constantI S_ 32 0#32),
    StableHlo.unary main_c_0 main_v3 (broadcastInDim S256 ![] bcast_S_S256 : (⟨S_, .i32⟩ : BufTy).Contents (Elt F) → (⟨S256, .i32⟩ : BufTy).Contents (Elt F)),
    StableHlo.binary main_v2 main_v3 main_v4 (cmpi .slt : (⟨S256, .i32⟩ : BufTy).Contents (Elt F) → (⟨S256, .i32⟩ : BufTy).Contents (Elt F) → (⟨S256, .i1⟩ : BufTy).Contents (Elt F)),
    StableHlo.nullary main_c_1 (constantI S_ 32 1000000#32),
    StableHlo.unary main_c_1 main_v5 (broadcastInDim S256 ![] bcast_S_S256 : (⟨S_, .i32⟩ : BufTy).Contents (Elt F) → (⟨S256, .i32⟩ : BufTy).Contents (Elt F)),
    StableHlo.binary main_v2 main_v5 main_v6 (addi : (⟨S256, .i32⟩ : BufTy).Contents (Elt F) → (⟨S256, .i32⟩ : BufTy).Contents (Elt F) → (⟨S256, .i32⟩ : BufTy).Contents (Elt F)),
    StableHlo.ternary main_v4 main_v6 main_v2 main_v7 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v7 main_v8 (broadcastInDim S256x1 ![0] bcast_S256_S256x1_0 : (⟨S256, .i32⟩ : BufTy).Contents (Elt F) → (⟨S256x1, .i32⟩ : BufTy).Contents (Elt F)),
    StableHlo.binary main_arg0 main_v8 main_v9 ((fun x i => Host.gather gather_S64x1000000_S256x1_S64x256_0_1_n_n_1_1_641 x i) : (⟨S64x1000000, .f32⟩ : BufTy).Contents (Elt F) → (⟨S256x1, .i32⟩ : BufTy).Contents (Elt F) → (⟨S64x256, .f32⟩ : BufTy).Contents (Elt F)) ]

/-- The next 33 operations: the same index computation a second time over buffers of its own, the gather of the sampled columns of the global token as spread over the rows, and the join of the two gathered blocks along the columns. -/
abbrev opsB : List (HloOp τ sig (Elt F)) :=
  [
    StableHlo.nullary main_v10 (iotaInDim S256 32 0),
    StableHlo.nullary main_c_2 (constantI S_ 32 1000000#32),
    StableHlo.TRef.unary (.of main_c_2) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S256 ![] bcast_S_S256),
    StableHlo.TRef.binary (.of main_v10) main_call1.v3 main_call1.v4 Host.remsi,
    StableHlo.TRef.nullary main_call1.c_1 (constantI S_ 32 0#32),
    StableHlo.TRef.unary main_call1.c_1 main_call1.v5 (broadcastInDim S256 ![] bcast_S_S256),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S256 ![] bcast_S_S256),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S256 ![] bcast_S_S256),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S256 ![] bcast_S_S256),
    StableHlo.TRef.binary main_call1.v4 main_call1.v13 main_call1.v14 addi,
    StableHlo.TRef.ternary main_call1.v12 main_call1.v14 main_call1.v4 main_call1.v15 select,
    StableHlo.nullary main_c_3 (constantI S_ 32 0#32),
    StableHlo.unary main_c_3 main_v12 (broadcastInDim S256 ![] bcast_S_S256 : (⟨S_, .i32⟩ : BufTy).Contents (Elt F) → (⟨S256, .i32⟩ : BufTy).Contents (Elt F)),
    StableHlo.binary main_v11 main_v12 main_v13 (cmpi .slt : (⟨S256, .i32⟩ : BufTy).Contents (Elt F) → (⟨S256, .i32⟩ : BufTy).Contents (Elt F) → (⟨S256, .i1⟩ : BufTy).Contents (Elt F)),
    StableHlo.nullary main_c_4 (constantI S_ 32 1000000#32),
    StableHlo.unary main_c_4 main_v14 (broadcastInDim S256 ![] bcast_S_S256 : (⟨S_, .i32⟩ : BufTy).Contents (Elt F) → (⟨S256, .i32⟩ : BufTy).Contents (Elt F)),
    StableHlo.binary main_v11 main_v14 main_v15 (addi : (⟨S256, .i32⟩ : BufTy).Contents (Elt F) → (⟨S256, .i32⟩ : BufTy).Contents (Elt F) → (⟨S256, .i32⟩ : BufTy).Contents (Elt F)),
    StableHlo.ternary main_v13 main_v15 main_v11 main_v16 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v16 main_v17 (broadcastInDim S256x1 ![0] bcast_S256_S256x1_0 : (⟨S256, .i32⟩ : BufTy).Contents (Elt F) → (⟨S256x1, .i32⟩ : BufTy).Contents (Elt F)),
    StableHlo.binary main_v0 main_v17 main_v18 ((fun x i => Host.gather gather_S64x1000000_S256x1_S64x256_0_1_n_n_1_1_641 x i) : (⟨S64x1000000, .f32⟩ : BufTy).Contents (Elt F) → (⟨S256x1, .i32⟩ : BufTy).Contents (Elt F) → (⟨S64x256, .f32⟩ : BufTy).Contents (Elt F)),
    StableHlo.binary main_v9 main_v18 main_v19 ((fun a b => concatenate S64x512 1 [⟨S64x256, a⟩, ⟨S64x256, b⟩] concatenates_S64x256_S64x256_S64x512_d1) : (⟨S64x256, .f32⟩ : BufTy).Contents (Elt F) → (⟨S64x256, .f32⟩ : BufTy).Contents (Elt F) → (⟨S64x512, .f32⟩ : BufTy).Contents (Elt F)) ]

/-- The next 14 operations: the first affine layer, the clamp at zero (three operations), the second affine layer, and the division by the temperature. -/
abbrev opsC : List (HloOp τ sig (Elt F)) :=
  [
    StableHlo.binary main_v19 main_arg2 main_v20 ((fun l r => Host.dotGeneral dot_S64x512_S512x128_S64x128_1_0_0_1_n_n none l r) : (⟨S64x512, .f32⟩ : BufTy).Contents (Elt F) → (⟨S512x128, .f32⟩ : BufTy).Contents (Elt F) → (⟨S64x128, .f32⟩ : BufTy).Contents (Elt F)),
    StableHlo.unary main_arg3 main_v21 (broadcastInDim S1x128 ![1] bcast_S128_S1x128_1 : (⟨S128, .f32⟩ : BufTy).Contents (Elt F) → (⟨S1x128, .f32⟩ : BufTy).Contents (Elt F)),
    StableHlo.unary main_v21 main_v22 (broadcastInDim S64x128 ![0, 1] bcast_S1x128_S64x128_0_1 : (⟨S1x128, .f32⟩ : BufTy).Contents (Elt F) → (⟨S64x128, .f32⟩ : BufTy).Contents (Elt F)),
    StableHlo.binary main_v20 main_v22 main_v23 (addf : (⟨S64x128, .f32⟩ : BufTy).Contents (Elt F) → (⟨S64x128, .f32⟩ : BufTy).Contents (Elt F) → (⟨S64x128, .f32⟩ : BufTy).Contents (Elt F)),
    StableHlo.TRef.nullary main_call2.cst (constant S_ .f32 0x00000000#32),
    StableHlo.TRef.unary main_call2.cst main_call2.v0 (broadcastInDim S64x128 ![] bcast_S_S64x128),
    StableHlo.TRef.binary (.of main_v23) main_call2.v0 main_call2.v1 maximumf,
    StableHlo.binary main_v24 main_arg4 main_v25 ((fun l r => Host.dotGeneral dot_S64x128_S128x1_S64x1_1_0_0_1_n_n none l r) : (⟨S64x128, .f32⟩ : BufTy).Contents (Elt F) → (⟨S128x1, .f32⟩ : BufTy).Contents (Elt F) → (⟨S64x1, .f32⟩ : BufTy).Contents (Elt F)),
    StableHlo.unary main_arg5 main_v26 (broadcastInDim S1x1 ![1] bcast_S1_S1x1_1 : (⟨S1, .f32⟩ : BufTy).Contents (Elt F) → (⟨S1x1, .f32⟩ : BufTy).Contents (Elt F)),
    StableHlo.unary main_v26 main_v27 (broadcastInDim S64x1 ![0, 1] bcast_S1x1_S64x1_0_1 : (⟨S1x1, .f32⟩ : BufTy).Contents (Elt F) → (⟨S64x1, .f32⟩ : BufTy).Contents (Elt F)),
    StableHlo.binary main_v25 main_v27 main_v28 (addf : (⟨S64x1, .f32⟩ : BufTy).Contents (Elt F) → (⟨S64x1, .f32⟩ : BufTy).Contents (Elt F) → (⟨S64x1, .f32⟩ : BufTy).Contents (Elt F)),
    StableHlo.nullary main_cst (constant S_ .f32 0x3F800000#32),
    StableHlo.unary main_cst main_v29 (broadcastInDim S64x1 ![] bcast_S_S64x1 : (⟨S_, .f32⟩ : BufTy).Contents (Elt F) → (⟨S64x1, .f32⟩ : BufTy).Contents (Elt F)),
    StableHlo.binary main_v28 main_v29 main_v30 (Host.divf : (⟨S64x1, .f32⟩ : BufTy).Contents (Elt F) → (⟨S64x1, .f32⟩ : BufTy).Contents (Elt F) → (⟨S64x1, .f32⟩ : BufTy).Contents (Elt F)) ]

/-- The next 14 operations: the softmax down the 64 rows (the maximum, the shift, the exponential, the sum, the quotient). -/
abbrev opsD : List (HloOp τ sig (Elt F)) :=
  [
    StableHlo.nullary main_cst_5 (constant S_ .f32 0xFF800000#32),
    StableHlo.binary main_v30 main_cst_5 main_v31 ((fun x v => Host.reduce FloatOps.maximumf x v reducesTo_S64x1_S1_d0 h_S_) : (⟨S64x1, .f32⟩ : BufTy).Contents (Elt F) → (⟨S_, .f32⟩ : BufTy).Contents (Elt F) → (⟨S1, .f32⟩ : BufTy).Contents (Elt F)),
    StableHlo.nullary main_cst_6 (constant S_ .f32 0xFF800000#32),
    StableHlo.unary main_cst_6 main_v32 (broadcastInDim S1 ![] bcast_S_S1 : (⟨S_, .f32⟩ : BufTy).Contents (Elt F) → (⟨S1, .f32⟩ : BufTy).Contents (Elt F)),
    StableHlo.binary main_v32 main_v31 main_v33 (maximumf : (⟨S1, .f32⟩ : BufTy).Contents (Elt F) → (⟨S1, .f32⟩ : BufTy).Contents (Elt F) → (⟨S1, .f32⟩ : BufTy).Contents (Elt F)),
    StableHlo.unary main_v33 main_v34 (broadcastInDim S1x1 ![1] bcast_S1_S1x1_1 : (⟨S1, .f32⟩ : BufTy).Contents (Elt F) → (⟨S1x1, .f32⟩ : BufTy).Contents (Elt F)),
    StableHlo.unary main_v34 main_v35 (broadcastInDim S64x1 ![0, 1] bcast_S1x1_S64x1_0_1 : (⟨S1x1, .f32⟩ : BufTy).Contents (Elt F) → (⟨S64x1, .f32⟩ : BufTy).Contents (Elt F)),
    StableHlo.binary main_v30 main_v35 main_v36 (subf : (⟨S64x1, .f32⟩ : BufTy).Contents (Elt F) → (⟨S64x1, .f32⟩ : BufTy).Contents (Elt F) → (⟨S64x1, .f32⟩ : BufTy).Contents (Elt F)),
    StableHlo.unary main_v36 main_v37 (Host.exp : (⟨S64x1, .f32⟩ : BufTy).Contents (Elt F) → (⟨S64x1, .f32⟩ : BufTy).Contents (Elt F)),
    StableHlo.nullary main_cst_7 (constant S_ .f32 0x00000000#32),
    StableHlo.binary main_v37 main_cst_7 main_v38 ((fun x v => Host.reduceAdd x v reducesTo_S64x1_S1_d0 h_S_) : (⟨S64x1, .f32⟩ : BufTy).Contents (Elt F) → (⟨S_, .f32⟩ : BufTy).Contents (Elt F) → (⟨S1, .f32⟩ : BufTy).Contents (Elt F)),
    StableHlo.unary main_v38 main_v39 (broadcastInDim S1x1 ![1] bcast_S1_S1x1_1 : (⟨S1, .f32⟩ : BufTy).Contents (Elt F) → (⟨S1x1, .f32⟩ : BufTy).Contents (Elt F)),
    StableHlo.unary main_v39 main_v40 (broadcastInDim S64x1 ![0, 1] bcast_S1x1_S64x1_0_1 : (⟨S1x1, .f32⟩ : BufTy).Contents (Elt F) → (⟨S64x1, .f32⟩ : BufTy).Contents (Elt F)),
    StableHlo.binary main_v37 main_v40 main_v41 (Host.divf : (⟨S64x1, .f32⟩ : BufTy).Contents (Elt F) → (⟨S64x1, .f32⟩ : BufTy).Contents (Elt F) → (⟨S64x1, .f32⟩ : BufTy).Contents (Elt F)) ]

/-- The last 12 operations: the weights spread over the columns, the product with the client tokens, the sum down the rows, and the two halves of the blend added. -/
abbrev opsE : List (HloOp τ sig (Elt F)) :=
  [
    StableHlo.unary main_v41 main_v42 (broadcastInDim S64x1000000 ![0, 1] bcast_S64x1_S64x1000000_0_1 : (⟨S64x1, .f32⟩ : BufTy).Contents (Elt F) → (⟨S64x1000000, .f32⟩ : BufTy).Contents (Elt F)),
    StableHlo.binary main_arg0 main_v42 main_v43 (mulf : (⟨S64x1000000, .f32⟩ : BufTy).Contents (Elt F) → (⟨S64x1000000, .f32⟩ : BufTy).Contents (Elt F) → (⟨S64x1000000, .f32⟩ : BufTy).Contents (Elt F)),
    StableHlo.nullary main_cst_8 (constant S_ .f32 0x00000000#32),
    StableHlo.binary main_v43 main_cst_8 main_v44 ((fun x v => Host.reduceAdd x v reducesTo_S64x1000000_S1000000_d0 h_S_) : (⟨S64x1000000, .f32⟩ : BufTy).Contents (Elt F) → (⟨S_, .f32⟩ : BufTy).Contents (Elt F) → (⟨S1000000, .f32⟩ : BufTy).Contents (Elt F)),
    StableHlo.unary main_v44 main_v45 (broadcastInDim S1x1000000 ![1] bcast_S1000000_S1x1000000_1 : (⟨S1000000, .f32⟩ : BufTy).Contents (Elt F) → (⟨S1x1000000, .f32⟩ : BufTy).Contents (Elt F)),
    StableHlo.nullary main_cst_9 (constant S_ .f32 0x3F000000#32),
    StableHlo.unary main_cst_9 main_v46 (broadcastInDim S1x1000000 ![] bcast_S_S1x1000000 : (⟨S_, .f32⟩ : BufTy).Contents (Elt F) → (⟨S1x1000000, .f32⟩ : BufTy).Contents (Elt F)),
    StableHlo.binary main_v46 main_arg1 main_v47 (mulf : (⟨S1x1000000, .f32⟩ : BufTy).Contents (Elt F) → (⟨S1x1000000, .f32⟩ : BufTy).Contents (Elt F) → (⟨S1x1000000, .f32⟩ : BufTy).Contents (Elt F)),
    StableHlo.nullary main_cst_10 (constant S_ .f32 0x3F000000#32),
    StableHlo.unary main_cst_10 main_v48 (broadcastInDim S1x1000000 ![] bcast_S_S1x1000000 : (⟨S_, .f32⟩ : BufTy).Contents (Elt F) → (⟨S1x1000000, .f32⟩ : BufTy).Contents (Elt F)),
    StableHlo.binary main_v48 main_v45 main_v49 (mulf : (⟨S1x1000000, .f32⟩ : BufTy).Contents (Elt F) → (⟨S1x1000000, .f32⟩ : BufTy).Contents (Elt F) → (⟨S1x1000000, .f32⟩ : BufTy).Contents (Elt F)),
    StableHlo.binary main_v47 main_v49 main_v50 (addf : (⟨S1x1000000, .f32⟩ : BufTy).Contents (Elt F) → (⟨S1x1000000, .f32⟩ : BufTy).Contents (Elt F) → (⟨S1x1000000, .f32⟩ : BufTy).Contents (Elt F)) ]

/-- @main's 106 operations in program order: the five stretches one after the other. -/
abbrev ops : List (HloOp τ sig (Elt F)) := opsA ++ (opsB ++ (opsC ++ (opsD ++ opsE)))

/-- Running two lists of operations one after the other is running the first, then the second from what the
    first left. -/
theorem after_append {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_append l₁ l₂]

end Cert.ReferenceIdeal.RefRun

end
-- ==== Proof.RefRunA.lean ====
/-
  The first stretch of the reference's operations, read back: after it the first gathered block is the
  client tokens gathered at the wrapped remainders of the column numbers, the global token stands spread
  over the 64 rows, and the six arguments are untouched.
-/
import proofs.«104560_j59253368815734_2_alg».proof.Proof.RefRunOps
import proofs.«104560_j59253368815734_2_alg».proof.Proof.RefStages

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F] [Facts]

attribute [local irreducible] Host.gather Host.reduce Host.reduceAdd Host.remsi Host.divf Host.exp concatenate broadcastInDim iotaInDim constant constantI addf subf mulf maximumf addi andi cmpi select in
set_option maxRecDepth 16384 in
set_option maxHeartbeats 1600000 in
/-- After the first stretch the first gathered block is the gather of the client tokens' columns at the start
    indices: the remainders of 0 … 255 by the row length, wrapped once if negative, as a 256×1 table. -/
theorem A_v9 (V : Valuation τ sig (Elt F)) :
    after opsA V (main_v9 : DevRef τ sig)
      = Host.gather gather_S64x1000000_S256x1_S64x256_0_1_n_n_1_1_641 (V (main_arg0 : DevRef τ sig)) (Stages.gatherIdx (F := F)) := by
  simp only [after_cons, after_nil]
  rfl

attribute [local irreducible] Host.gather Host.reduce Host.reduceAdd Host.remsi Host.divf Host.exp concatenate broadcastInDim iotaInDim constant constantI addf subf mulf maximumf addi andi cmpi select in
set_option maxRecDepth 16384 in
set_option maxHeartbeats 1600000 in
/-- After the first stretch the global token stands repeated on each of the 64 rows. -/
theorem A_v0 (V : Valuation τ sig (Elt F)) :
    after opsA V (main_v0 : DevRef τ sig)
      = broadcastInDim S64x1000000 ![0, 1] bcast_S1x1000000_S64x1000000_0_1 (V (main_arg1 : DevRef τ sig)) := by
  simp only [after_cons, after_nil]
  rfl

/-- No operation of this stretch writes argument 0: it holds afterwards what it held before. -/
theorem A_arg0 (V : Valuation τ sig (Elt F)) :
    after opsA V (main_arg0 : DevRef τ sig) = V (main_arg0 : DevRef τ sig) := by
  simp only [after_cons, after_nil]
  rfl

/-- No operation of this stretch writes argument 1: it holds afterwards what it held before. -/
theorem A_arg1 (V : Valuation τ sig (Elt F)) :
    after opsA V (main_arg1 : DevRef τ sig) = V (main_arg1 : DevRef τ sig) := by
  simp only [after_cons, after_nil]
  rfl

/-- No operation of this stretch writes argument 2: it holds afterwards what it held before. -/
theorem A_arg2 (V : Valuation τ sig (Elt F)) :
    after opsA V (main_arg2 : DevRef τ sig) = V (main_arg2 : DevRef τ sig) := by
  simp only [after_cons, after_nil]
  rfl

/-- No operation of this stretch writes argument 3: it holds afterwards what it held before. -/
theorem A_arg3 (V : Valuation τ sig (Elt F)) :
    after opsA V (main_arg3 : DevRef τ sig) = V (main_arg3 : DevRef τ sig) := by
  simp only [after_cons, after_nil]
  rfl

/-- No operation of this stretch writes argument 4: it holds afterwards what it held before. -/
theorem A_arg4 (V : Valuation τ sig (Elt F)) :
    after opsA V (main_arg4 : DevRef τ sig) = V (main_arg4 : DevRef τ sig) := by
  simp only [after_cons, after_nil]
  rfl

/-- No operation of this stretch writes argument 5: it holds afterwards what it held before. -/
theorem A_arg5 (V : Valuation τ sig (Elt F)) :
    after opsA V (main_arg5 : DevRef τ sig) = V (main_arg5 : DevRef τ sig) := by
  simp only [after_cons, after_nil]
  rfl

/-- Every operation of this stretch touches buffers of the tensor core only. -/
theorem subA : (opsA : List (HloOp τ sig (Elt F))).Forall fun op => op.bufs ⊆ tcRefs τ sig :=
  ⟨
    unary_bufs_sub .., nullary_bufs_sub .., nullary_bufs_sub .., unary_bufs_sub .., nullary_bufs_sub .., binary_bufs_sub ..,
    nullary_bufs_sub .., ternary_bufs_sub .., unary_bufs_sub .., binary_bufs_sub .., nullary_bufs_sub .., unary_bufs_sub ..,
    binary_bufs_sub .., nullary_bufs_sub .., unary_bufs_sub .., binary_bufs_sub .., nullary_bufs_sub .., binary_bufs_sub ..,
    unary_bufs_sub .., binary_bufs_sub .., binary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub ..⟩

/-- Every operation of this stretch determines the contents of the buffer it writes. -/
theorem freshA : ∀ op ∈ (opsA : List (HloOp τ sig (Elt F))), op.fresh = ∅ := by
  intro _ h; (repeat (cases h with | head => rfl | tail _ h => ?_)); exact nomatch h

end Cert.ReferenceIdeal.RefRun

end
-- ==== Proof.RefRunB.lean ====
/-
  The second stretch of the reference's operations, read back: the start indices are computed a second
  time (to the same table), the spread global token is gathered at them, and the two gathered blocks are
  joined along the columns into the 64×512 attention input.
-/
import proofs.«104560_j59253368815734_2_alg».proof.Proof.RefRunOps
import proofs.«104560_j59253368815734_2_alg».proof.Proof.RefStages

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F] [Facts]

attribute [local irreducible] Host.gather Host.reduce Host.reduceAdd Host.remsi Host.divf Host.exp concatenate broadcastInDim iotaInDim constant constantI addf subf mulf maximumf addi andi cmpi select in
set_option maxRecDepth 16384 in
set_option maxHeartbeats 1600000 in
/-- After the second stretch the attention input is the join, along the columns, of the first gathered block as
    it stood and the gather of the spread global token at the same start indices. -/
theorem B_v19 (V : Valuation τ sig (Elt F)) :
    after opsB V (main_v19 : DevRef τ sig)
      = concatenate S64x512 1
          [⟨S64x256, V (main_v9 : DevRef τ sig)⟩,
           ⟨S64x256, Host.gather gather_S64x1000000_S256x1_S64x256_0_1_n_n_1_1_641 (V (main_v0 : DevRef τ sig)) (Stages.gatherIdx (F := F))⟩]
          concatenates_S64x256_S64x256_S64x512_d1 := by
  simp only [after_cons, after_nil]
  rfl

/-- No operation of this stretch writes argument 0: it holds afterwards what it held before. -/
theorem B_arg0 (V : Valuation τ sig (Elt F)) :
    after opsB V (main_arg0 : DevRef τ sig) = V (main_arg0 : DevRef τ sig) := by
  simp only [after_cons, after_nil]
  rfl

/-- No operation of this stretch writes argument 1: it holds afterwards what it held before. -/
theorem B_arg1 (V : Valuation τ sig (Elt F)) :
    after opsB V (main_arg1 : DevRef τ sig) = V (main_arg1 : DevRef τ sig) := by
  simp only [after_cons, after_nil]
  rfl

/-- No operation of this stretch writes argument 2: it holds afterwards what it held before. -/
theorem B_arg2 (V : Valuation τ sig (Elt F)) :
    after opsB V (main_arg2 : DevRef τ sig) = V (main_arg2 : DevRef τ sig) := by
  simp only [after_cons, after_nil]
  rfl

/-- No operation of this stretch writes argument 3: it holds afterwards what it held before. -/
theorem B_arg3 (V : Valuation τ sig (Elt F)) :
    after opsB V (main_arg3 : DevRef τ sig) = V (main_arg3 : DevRef τ sig) := by
  simp only [after_cons, after_nil]
  rfl

/-- No operation of this stretch writes argument 4: it holds afterwards what it held before. -/
theorem B_arg4 (V : Valuation τ sig (Elt F)) :
    after opsB V (main_arg4 : DevRef τ sig) = V (main_arg4 : DevRef τ sig) := by
  simp only [after_cons, after_nil]
  rfl

/-- No operation of this stretch writes argument 5: it holds afterwards what it held before. -/
theorem B_arg5 (V : Valuation τ sig (Elt F)) :
    after opsB V (main_arg5 : DevRef τ sig) = V (main_arg5 : DevRef τ sig) := by
  simp only [after_cons, after_nil]
  rfl

/-- Every operation of this stretch touches buffers of the tensor core only. -/
theorem subB : (opsB : List (HloOp τ sig (Elt F))).Forall fun op => op.bufs ⊆ tcRefs τ sig :=
  ⟨
    nullary_bufs_sub .., nullary_bufs_sub .., unary_bufs_sub .., nullary_bufs_sub .., binary_bufs_sub .., nullary_bufs_sub ..,
    ternary_bufs_sub .., unary_bufs_sub .., binary_bufs_sub .., nullary_bufs_sub .., unary_bufs_sub .., binary_bufs_sub ..,
    nullary_bufs_sub .., unary_bufs_sub .., binary_bufs_sub .., nullary_bufs_sub .., binary_bufs_sub .., unary_bufs_sub ..,
    binary_bufs_sub .., binary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub ..⟩

/-- Every operation of this stretch determines the contents of the buffer it writes. -/
theorem freshB : ∀ op ∈ (opsB : List (HloOp τ sig (Elt F))), op.fresh = ∅ := by
  intro _ h; (repeat (cases h with | head => rfl | tail _ h => ?_)); exact nomatch h

end Cert.ReferenceIdeal.RefRun

end
-- ==== Proof.RefRunC.lean ====
/-
  The third stretch of the reference's operations, read back: the scores before the softmax, as the stage
  function of the attention input and the four parameter arrays.
-/
import proofs.«104560_j59253368815734_2_alg».proof.Proof.RefRunOps
import proofs.«104560_j59253368815734_2_alg».proof.Proof.RefStages

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F] [Facts]

attribute [local irreducible] Host.gather Host.reduce Host.reduceAdd Host.remsi Host.divf Host.exp concatenate broadcastInDim iotaInDim constant constantI addf subf mulf maximumf addi andi cmpi select in
set_option maxRecDepth 16384 in
set_option maxHeartbeats 1600000 in
/-- After the third stretch the scores are the two affine layers with the clamp at zero between them, divided by
    the temperature, of the attention input as it stood. -/
theorem C_v30 (V : Valuation τ sig (Elt F)) :
    after opsC V (main_v30 : DevRef τ sig)
      = Stages.scores (V (main_v19 : DevRef τ sig)) (V (main_arg2 : DevRef τ sig)) (V (main_arg3 : DevRef τ sig))
          (V (main_arg4 : DevRef τ sig)) (V (main_arg5 : DevRef τ sig)) := by
  simp only [after_cons, after_nil]
  rfl

/-- No operation of this stretch writes argument 0: it holds afterwards what it held before. -/
theorem C_arg0 (V : Valuation τ sig (Elt F)) :
    after opsC V (main_arg0 : DevRef τ sig) = V (main_arg0 : DevRef τ sig) := by
  simp only [after_cons, after_nil]
  rfl

/-- No operation of this stretch writes argument 1: it holds afterwards what it held before. -/
theorem C_arg1 (V : Valuation τ sig (Elt F)) :
    after opsC V (main_arg1 : DevRef τ sig) = V (main_arg1 : DevRef τ sig) := by
  simp only [after_cons, after_nil]
  rfl

/-- No operation of this stretch writes argument 2: it holds afterwards what it held before. -/
theorem C_arg2 (V : Valuation τ sig (Elt F)) :
    after opsC V (main_arg2 : DevRef τ sig) = V (main_arg2 : DevRef τ sig) := by
  simp only [after_cons, after_nil]
  rfl

/-- No operation of this stretch writes argument 3: it holds afterwards what it held before. -/
theorem C_arg3 (V : Valuation τ sig (Elt F)) :
    after opsC V (main_arg3 : DevRef τ sig) = V (main_arg3 : DevRef τ sig) := by
  simp only [after_cons, after_nil]
  rfl

/-- No operation of this stretch writes argument 4: it holds afterwards what it held before. -/
theorem C_arg4 (V : Valuation τ sig (Elt F)) :
    after opsC V (main_arg4 : DevRef τ sig) = V (main_arg4 : DevRef τ sig) := by
  simp only [after_cons, after_nil]
  rfl

/-- No operation of this stretch writes argument 5: it holds afterwards what it held before. -/
theorem C_arg5 (V : Valuation τ sig (Elt F)) :
    after opsC V (main_arg5 : DevRef τ sig) = V (main_arg5 : DevRef τ sig) := by
  simp only [after_cons, after_nil]
  rfl

/-- Every operation of this stretch touches buffers of the tensor core only. -/
theorem subC : (opsC : List (HloOp τ sig (Elt F))).Forall fun op => op.bufs ⊆ tcRefs τ sig :=
  ⟨
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., binary_bufs_sub ..⟩

/-- Every operation of this stretch determines the contents of the buffer it writes. -/
theorem freshC : ∀ op ∈ (opsC : List (HloOp τ sig (Elt F))), op.fresh = ∅ := by
  intro _ h; (repeat (cases h with | head => rfl | tail _ h => ?_)); exact nomatch h

end Cert.ReferenceIdeal.RefRun

end
-- ==== Proof.RefRunD.lean ====
/-
  The fourth stretch of the reference's operations, read back: the softmax of the scores down the 64 rows.
-/
import proofs.«104560_j59253368815734_2_alg».proof.Proof.RefRunOps
import proofs.«104560_j59253368815734_2_alg».proof.Proof.RefStages

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F] [Facts]

attribute [local irreducible] Host.gather Host.reduce Host.reduceAdd Host.remsi Host.divf Host.exp concatenate broadcastInDim iotaInDim constant constantI addf subf mulf maximumf addi andi cmpi select in
set_option maxRecDepth 16384 in
set_option maxHeartbeats 1600000 in
/-- After the fourth stretch the weights are the softmax down the rows of the scores as they stood. -/
theorem D_v41 (V : Valuation τ sig (Elt F)) :
    after opsD V (main_v41 : DevRef τ sig) = Stages.softmaxRows (V (main_v30 : DevRef τ sig)) := by
  simp only [after_cons, after_nil]
  rfl

/-- No operation of this stretch writes argument 0: it holds afterwards what it held before. -/
theorem D_arg0 (V : Valuation τ sig (Elt F)) :
    after opsD V (main_arg0 : DevRef τ sig) = V (main_arg0 : DevRef τ sig) := by
  simp only [after_cons, after_nil]
  rfl

/-- No operation of this stretch writes argument 1: it holds afterwards what it held before. -/
theorem D_arg1 (V : Valuation τ sig (Elt F)) :
    after opsD V (main_arg1 : DevRef τ sig) = V (main_arg1 : DevRef τ sig) := by
  simp only [after_cons, after_nil]
  rfl

/-- No operation of this stretch writes argument 2: it holds afterwards what it held before. -/
theorem D_arg2 (V : Valuation τ sig (Elt F)) :
    after opsD V (main_arg2 : DevRef τ sig) = V (main_arg2 : DevRef τ sig) := by
  simp only [after_cons, after_nil]
  rfl

/-- No operation of this stretch writes argument 3: it holds afterwards what it held before. -/
theorem D_arg3 (V : Valuation τ sig (Elt F)) :
    after opsD V (main_arg3 : DevRef τ sig) = V (main_arg3 : DevRef τ sig) := by
  simp only [after_cons, after_nil]
  rfl

/-- No operation of this stretch writes argument 4: it holds afterwards what it held before. -/
theorem D_arg4 (V : Valuation τ sig (Elt F)) :
    after opsD V (main_arg4 : DevRef τ sig) = V (main_arg4 : DevRef τ sig) := by
  simp only [after_cons, after_nil]
  rfl

/-- No operation of this stretch writes argument 5: it holds afterwards what it held before. -/
theorem D_arg5 (V : Valuation τ sig (Elt F)) :
    after opsD V (main_arg5 : DevRef τ sig) = V (main_arg5 : DevRef τ sig) := by
  simp only [after_cons, after_nil]
  rfl

/-- Every operation of this stretch touches buffers of the tensor core only. -/
theorem subD : (opsD : List (HloOp τ sig (Elt F))).Forall fun op => op.bufs ⊆ tcRefs τ sig :=
  ⟨
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub ..⟩

/-- Every operation of this stretch determines the contents of the buffer it writes. -/
theorem freshD : ∀ op ∈ (opsD : List (HloOp τ sig (Elt F))), op.fresh = ∅ := by
  intro _ h; (repeat (cases h with | head => rfl | tail _ h => ?_)); exact nomatch h

end Cert.ReferenceIdeal.RefRun

end
-- ==== Proof.RefRunE.lean ====
/-
  The last stretch of the reference's operations, read back: the blend of the global token with the
  weighted sum of the client rows.
-/
import proofs.«104560_j59253368815734_2_alg».proof.Proof.RefRunOps
import proofs.«104560_j59253368815734_2_alg».proof.Proof.RefStages

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F] [Facts]

attribute [local irreducible] Host.gather Host.reduce Host.reduceAdd Host.remsi Host.divf Host.exp concatenate broadcastInDim iotaInDim constant constantI addf subf mulf maximumf addi andi cmpi select in
set_option maxRecDepth 16384 in
set_option maxHeartbeats 1600000 in
/-- After the last stretch the result is half the global token plus half the sum down the rows of the client
    tokens each scaled by its row's weight. -/
theorem E_v50 (V : Valuation τ sig (Elt F)) :
    after opsE V (main_v50 : DevRef τ sig)
      = Stages.blend (V (main_arg0 : DevRef τ sig)) (V (main_arg1 : DevRef τ sig)) (V (main_v41 : DevRef τ sig)) := by
  simp only [after_cons, after_nil]
  rfl

/-- No operation of this stretch writes argument 0: it holds afterwards what it held before. -/
theorem E_arg0 (V : Valuation τ sig (Elt F)) :
    after opsE V (main_arg0 : DevRef τ sig) = V (main_arg0 : DevRef τ sig) := by
  simp only [after_cons, after_nil]
  rfl

/-- No operation of this stretch writes argument 1: it holds afterwards what it held before. -/
theorem E_arg1 (V : Valuation τ sig (Elt F)) :
    after opsE V (main_arg1 : DevRef τ sig) = V (main_arg1 : DevRef τ sig) := by
  simp only [after_cons, after_nil]
  rfl

/-- No operation of this stretch writes argument 2: it holds afterwards what it held before. -/
theorem E_arg2 (V : Valuation τ sig (Elt F)) :
    after opsE V (main_arg2 : DevRef τ sig) = V (main_arg2 : DevRef τ sig) := by
  simp only [after_cons, after_nil]
  rfl

/-- No operation of this stretch writes argument 3: it holds afterwards what it held before. -/
theorem E_arg3 (V : Valuation τ sig (Elt F)) :
    after opsE V (main_arg3 : DevRef τ sig) = V (main_arg3 : DevRef τ sig) := by
  simp only [after_cons, after_nil]
  rfl

/-- No operation of this stretch writes argument 4: it holds afterwards what it held before. -/
theorem E_arg4 (V : Valuation τ sig (Elt F)) :
    after opsE V (main_arg4 : DevRef τ sig) = V (main_arg4 : DevRef τ sig) := by
  simp only [after_cons, after_nil]
  rfl

/-- No operation of this stretch writes argument 5: it holds afterwards what it held before. -/
theorem E_arg5 (V : Valuation τ sig (Elt F)) :
    after opsE V (main_arg5 : DevRef τ sig) = V (main_arg5 : DevRef τ sig) := by
  simp only [after_cons, after_nil]
  rfl

/-- Every operation of this stretch touches buffers of the tensor core only. -/
theorem subE : (opsE : List (HloOp τ sig (Elt F))).Forall fun op => op.bufs ⊆ tcRefs τ sig :=
  ⟨
    unary_bufs_sub .., binary_bufs_sub .., nullary_bufs_sub .., binary_bufs_sub .., unary_bufs_sub .., nullary_bufs_sub ..,
    unary_bufs_sub .., binary_bufs_sub .., nullary_bufs_sub .., unary_bufs_sub .., binary_bufs_sub .., binary_bufs_sub ..⟩

/-- Every operation of this stretch determines the contents of the buffer it writes. -/
theorem freshE : ∀ op ∈ (opsE : List (HloOp τ sig (Elt F))), op.fresh = ∅ := by
  intro _ h; (repeat (cases h with | head => rfl | tail _ h => ?_)); exact nomatch h

end Cert.ReferenceIdeal.RefRun

end
-- ==== Proof.RefRunMain.lean ====
/-
  The reference's @main is the straight line of its 106 operations.
-/
import proofs.«104560_j59253368815734_2_alg».proof.Proof.RefRunOps

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F] [Facts]

set_option maxRecDepth 16384 in
set_option maxHeartbeats 4000000 in
/-- @main is that straight line. Sequencing two programs grafts the second at the end of the first, so @main's two
    windows, with the two outlined remainders (and the select each calls) and the outlined clamp at their call
    sites, and the five stretches run one after the other both compute to the same chain of single-operation
    steps ending in the return. -/
theorem main_eq (c : Dev nD) : main (F := F) c = seq ops := rfl

end Cert.ReferenceIdeal.RefRun

end
-- ==== Proof.RefRun.lean ====
/-
  The reference program's run. Its @main is a straight line of 106 tensor operations (the outlined functions
  substituted at their call sites), each writing one buffer of its own. Running the line from any launch
  memory leaves every buffer at the fold of the operations' results. Read at the result buffer, stretch by
  stretch, that fold is the composition of the stage functions of the six argument arrays; read at an
  argument buffer it is what the launch put there, since no operation writes an argument.
-/
import proofs.«104560_j59253368815734_2_alg».proof.Proof.RefRunA
import proofs.«104560_j59253368815734_2_alg».proof.Proof.RefRunB
import proofs.«104560_j59253368815734_2_alg».proof.Proof.RefRunC
import proofs.«104560_j59253368815734_2_alg».proof.Proof.RefRunD
import proofs.«104560_j59253368815734_2_alg».proof.Proof.RefRunE
import proofs.«104560_j59253368815734_2_alg».proof.Proof.RefRunMain
import proofs.«104560_j59253368815734_2_alg».proof.Proof.RefStages
import proofs.«104560_j59253368815734_2_alg».proof.Proof.Gen.ReferenceIdeal
import proofs.«104560_j59253368815734_2_alg».proof.Proof.Gen.Pre_finite_inputs
import proofs.«104560_j59253368815734_2_alg».proof.Defs
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F]

section Generic

variable [Facts]

/-- Every operation of @main touches buffers of the tensor core only: each stretch's do. -/
theorem ops_sub : (ops : List (HloOp τ sig (Elt F))).Forall fun op => op.bufs ⊆ tcRefs τ sig :=
  List.forall_iff_forall_mem.2 fun op h => by
    rcases List.mem_append.1 h with h | h
    · exact List.forall_iff_forall_mem.1 subA op h
    rcases List.mem_append.1 h with h | h
    · exact List.forall_iff_forall_mem.1 subB op h
    rcases List.mem_append.1 h with h | h
    · exact List.forall_iff_forall_mem.1 subC op h
    rcases List.mem_append.1 h with h | h
    · exact List.forall_iff_forall_mem.1 subD op h
    exact List.forall_iff_forall_mem.1 subE op h

/-- Every operation of @main determines the contents of the buffer it writes: each stretch's do. -/
theorem ops_fresh : ∀ op ∈ (ops : List (HloOp τ sig (Elt F))), op.fresh = ∅ :=
  fun op h => by
    rcases List.mem_append.1 h with h | h
    · exact freshA op h
    rcases List.mem_append.1 h with h | h
    · exact freshB op h
    rcases List.mem_append.1 h with h | h
    · exact freshC op h
    rcases List.mem_append.1 h with h | h
    · exact freshD op h
    exact freshE op h

/-- The fold of all 106 operations read at the result buffer is the reference's stage functions composed, at
    the contents the six arguments started with: the last stretch leaves the blend of the arguments with the
    weights, the fourth leaves the weights as the softmax of the scores, the third the scores of the attention
    input and the parameters, the second the attention input as the join of the two gathered blocks, the first
    the first gathered block and the spread global token; and no stretch writes an argument. -/
theorem out_eq (V : Valuation τ sig (Elt F)) :
    after ops V (main_v50 : DevRef τ sig)
      = Stages.out (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  show after (opsA ++ (opsB ++ (opsC ++ (opsD ++ opsE)))) V _ = _
  rw [after_append, after_append, after_append, after_append]
  rw [E_v50, D_v41, C_v30, B_v19, A_v9, A_v0]
  rw [D_arg0, C_arg0, B_arg0, A_arg0, D_arg1, C_arg1, B_arg1, A_arg1, B_arg2, A_arg2, B_arg3, A_arg3, B_arg4, A_arg4,
    B_arg5, A_arg5]
  rfl

/-- No operation of @main writes argument 0: after the whole line it holds what it held before. -/
theorem arg0_eq (V : Valuation τ sig (Elt F)) :
    after ops V (main_arg0 : DevRef τ sig) = V (main_arg0 : DevRef τ sig) := by
  show after (opsA ++ (opsB ++ (opsC ++ (opsD ++ opsE)))) V _ = _
  rw [after_append, after_append, after_append, after_append, E_arg0, D_arg0, C_arg0, B_arg0, A_arg0]

/-- No operation of @main writes argument 1: after the whole line it holds what it held before. -/
theorem arg1_eq (V : Valuation τ sig (Elt F)) :
    after ops V (main_arg1 : DevRef τ sig) = V (main_arg1 : DevRef τ sig) := by
  show after (opsA ++ (opsB ++ (opsC ++ (opsD ++ opsE)))) V _ = _
  rw [after_append, after_append, after_append, after_append, E_arg1, D_arg1, C_arg1, B_arg1, A_arg1]

/-- No operation of @main writes argument 2: after the whole line it holds what it held before. -/
theorem arg2_eq (V : Valuation τ sig (Elt F)) :
    after ops V (main_arg2 : DevRef τ sig) = V (main_arg2 : DevRef τ sig) := by
  show after (opsA ++ (opsB ++ (opsC ++ (opsD ++ opsE)))) V _ = _
  rw [after_append, after_append, after_append, after_append, E_arg2, D_arg2, C_arg2, B_arg2, A_arg2]

/-- No operation of @main writes argument 3: after the whole line it holds what it held before. -/
theorem arg3_eq (V : Valuation τ sig (Elt F)) :
    after ops V (main_arg3 : DevRef τ sig) = V (main_arg3 : DevRef τ sig) := by
  show after (opsA ++ (opsB ++ (opsC ++ (opsD ++ opsE)))) V _ = _
  rw [after_append, after_append, after_append, after_append, E_arg3, D_arg3, C_arg3, B_arg3, A_arg3]

/-- No operation of @main writes argument 4: after the whole line it holds what it held before. -/
theorem arg4_eq (V : Valuation τ sig (Elt F)) :
    after ops V (main_arg4 : DevRef τ sig) = V (main_arg4 : DevRef τ sig) := by
  show after (opsA ++ (opsB ++ (opsC ++ (opsD ++ opsE)))) V _ = _
  rw [after_append, after_append, after_append, after_append, E_arg4, D_arg4, C_arg4, B_arg4, A_arg4]

/-- No operation of @main writes argument 5: after the whole line it holds what it held before. -/
theorem arg5_eq (V : Valuation τ sig (Elt F)) :
    after ops V (main_arg5 : DevRef τ sig) = V (main_arg5 : DevRef τ sig) := by
  show after (opsA ++ (opsB ++ (opsC ++ (opsD ++ opsE)))) V _ = _
  rw [after_append, after_append, after_append, after_append, E_arg5, D_arg5, C_arg5, B_arg5, A_arg5]

end Generic

theorem scopedRefs_eq : (Finset.univ.filter fun b : Ref sig .tc => b.isScoped) = ∅ := by decide
theorem scopedSems_eq : (Finset.univ.filter fun sm : SemLoc sig => sm.isScoped .tc) = ∅ := by decide

/-- At the compiled mesh, for any float values, from any memory with zero counters: every weakly fair execution
    of @main on the tensor cores terminates, and every final state has each tensor-core buffer at the fold of
    the 106 operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ (fun _ => ops_fresh)

/-- On every device, for any float values, from any memory with zero counters: every weakly fair execution of the
    reference's @main terminates with the result buffer at the composed stage functions of the six arguments'
    launch contents, and the six arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v50)
        = Stages.out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v50).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_main m ρ)

/-- The reference's frame claim: at the ideal float values it runs to the end from any launch memory, and its six
    argument arrays end as they started. It is the run above with the statement about the result dropped. -/
theorem frame : Cert.frame_ReferenceIdeal :=
  fun m ρ _ => (θ_run Cert.ReferenceIdeal.defs _ _).mono (fun _ h c => (h c).2) (run (F := Ideal) m ρ)

end Cert.ReferenceIdeal.RefRun

end
-- ==== Proof.lean ====
/-
  The certificate of the weighted-fusion kernel against its jnp reference.

  Both programs take 64 client rows and one global row of 1000000 columns and the parameters of a small two-layer
  network. From the first 256 columns they compute 64 attention weights (an affine layer, a clamp at zero, a second
  affine layer, a softmax down the rows); the result is, column by column, half the global entry plus half the
  weighted sum of the 64 client entries. The kernel's program computes the weights on the host and streams the
  columns through a pipeline of 16 blocks of 65536 lanes, the last block cut at column 1000000; the reference
  computes everything on the host, reading the first 256 columns through gathers at the indices 0 … 255 reduced
  modulo the row length.

  The three frames: the word-level kernel's (the output's buffer is not described: a float sum down the rows is
  opaque there), the idealized kernel's (from the run that also gives its value), the reference's (its run with
  the result dropped). The idealization rewrote nothing. The equivalence: at the exact values the kernel's result
  array is the fused token of its arguments (block by block, the 16 blocks covering the array), the reference's
  result is the same function of its arguments (index by index; the host sum's zero start is absorbed by 0 + x = x),
  and the arguments agree. No finiteness of any input is used.
-/
import proofs.«104560_j59253368815734_2_alg».proof.Defs
import proofs.«104560_j59253368815734_2_alg».proof.Proof.Gen.Kernel
import proofs.«104560_j59253368815734_2_alg».proof.Proof.Gen.KernelIdeal
import proofs.«104560_j59253368815734_2_alg».proof.Proof.Gen.ReferenceIdeal
import proofs.«104560_j59253368815734_2_alg».proof.Proof.Gen.Pre_finite_inputs
import proofs.«104560_j59253368815734_2_alg».proof.Proof.KFrameBits
import proofs.«104560_j59253368815734_2_alg».proof.Proof.KRun
import proofs.«104560_j59253368815734_2_alg».proof.Proof.KHost
import proofs.«104560_j59253368815734_2_alg».proof.Proof.Bridge
import proofs.«104560_j59253368815734_2_alg».proof.Proof.RefRun
import Idealize.ShloMosaic.Adequacy
import Idealize.ShloMosaic.Init

noncomputable section

namespace Cert.Proof

open Idealize.ShloMosaic Idealize.SL.Sem Cert.Fusion

/-- The word-level kernel runs to the end and leaves its six arguments as they were. -/
theorem frame_kernel : Cert.frame_Kernel := Cert.Kernel.FrameBits.frame

/-- So does the idealized kernel. -/
theorem frame_kernelIdeal : Cert.frame_KernelIdeal := fun m ρ _ => Cert.KernelIdeal.Run.frame m ρ

/-- So does the reference. -/
theorem frame_referenceIdeal : Cert.frame_ReferenceIdeal := Cert.ReferenceIdeal.RefRun.frame

/-- The idealization rewrote no operation. -/
theorem preserves : Cert.preserves_Kernel_KernelIdeal := trivial

/-- At the exact values both programs end with the fused token of the (agreeing) arguments. -/
theorem algebraic : Cert.algebraic_KernelIdeal_ReferenceIdeal := by
  intro m ρ m' ρ' _ hagree
  refine ⟨fun c => Cert.KernelIdeal.Data.G m c, Cert.KernelIdeal.Run.run_value m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2.1, (hagree c).2.2.2.2.2]
  refine (Cert.Bridge.out_eq _ _ _ _ _ _).trans ?_
  show _ = fused (n := 1000000) (Cert.KernelIdeal.Gen.V m c Cert.KernelIdeal.main_arg0)
    (Cert.KernelIdeal.Gen.V m c Cert.KernelIdeal.main_arg1) (Cert.KernelIdeal.Gen.V m c Cert.KernelIdeal.main_v25)
  rw [Cert.KernelIdeal.Gen.V_main_arg0 m c, Cert.KernelIdeal.Gen.V_main_arg1 m c, Cert.KernelIdeal.HostValue.V_weights m c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
